-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1x4096 .f32 .bf16
  ∧ IdealRules.truncf_extf.Statement Cert.KernelIdeal.S1x4096 .f32 .bf16
  ∧ IdealRules.truncf_extf.Statement Cert.KernelIdeal.S4096x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S_ : Shape := ⟨0, ![]⟩
abbrev S4x4096x1 : Shape := ⟨3, ![4, 4096, 1]⟩
abbrev S4x1x4096 : Shape := ⟨3, ![4, 1, 4096]⟩
abbrev S1x4096x3 : Shape := ⟨3, ![1, 4096, 3]⟩
abbrev S1x3x4096 : Shape := ⟨3, ![1, 3, 4096]⟩
abbrev S1x4096x1 : Shape := ⟨3, ![1, 4096, 1]⟩
abbrev S1x1x4096 : Shape := ⟨3, ![1, 1, 4096]⟩
abbrev S8x4096 : Shape := ⟨2, ![8, 4096]⟩
abbrev S4096x3 : Shape := ⟨2, ![4096, 3]⟩
abbrev S3x4096 : Shape := ⟨2, ![3, 4096]⟩
abbrev S1x4096 : Shape := ⟨2, ![1, 4096]⟩
abbrev S4x4096 : Shape := ⟨2, ![4, 4096]⟩
abbrev S2x4096 : Shape := ⟨2, ![2, 4096]⟩
abbrev S4096x1 : Shape := ⟨2, ![4096, 1]⟩
abbrev S4096x8 : Shape := ⟨2, ![4096, 8]⟩
abbrev S8x2048 : Shape := ⟨2, ![8, 2048]⟩
abbrev S4096x2048 : Shape := ⟨2, ![4096, 2048]⟩
abbrev S2048 : Shape := ⟨1, ![2048]⟩
abbrev S4096 : Shape := ⟨1, ![4096]⟩

abbrev nBuf : Space → Nat
  | .hbm => 10
  | .vmem => 9
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S_, .f32⟩
  | .hbm, ⟨4, _⟩ => ⟨S4x3x4096, .f32⟩
  | .hbm, ⟨5, _⟩ => ⟨S4x3x4096, .f32⟩
  | .hbm, ⟨6, _⟩ => ⟨S4x4096x1, .f32⟩
  | .hbm, ⟨7, _⟩ => ⟨S4x1x4096, .f32⟩
  | .hbm, ⟨8, _⟩ => ⟨S4x4096, .f32⟩
  | .hbm, ⟨9, _⟩ => ⟨S4x4096, .f32⟩
  | .local _ .vmem, ⟨0, _⟩ => ⟨S1x4096x3, .f32⟩
  | .local _ .vmem, ⟨1, _⟩ => ⟨S1x4096x3, .f32⟩
  | .local _ .vmem, ⟨2, _⟩ => ⟨S1x3x4096, .f32⟩
  | .local _ .vmem, ⟨3, _⟩ => ⟨S1x3x4096, .f32⟩
  | .local _ .vmem, ⟨4, _⟩ => ⟨S1x4096x1, .f32⟩
  | .local _ .vmem, ⟨5, _⟩ => ⟨S1x4096x1, .f32⟩
  | .local _ .vmem, ⟨6, _⟩ => ⟨S1x1x4096, .f32⟩
  | .local _ .vmem, ⟨7, _⟩ => ⟨S1x1x4096, .f32⟩
  | .local _ .vmem, ⟨8, _⟩ => ⟨S8x4096, .bf16⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4x4096x3_S4x3x4096_0_2_1 : S4x4096x3.Transposes [0, 2, 1] S4x3x4096
  bcast_S_S4x3x4096 : S_.BroadcastsInDim S4x3x4096 (![] : Fin 0 → Fin S4x3x4096.rank)
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S3x4096_o0_0_S1x4096 : S3x4096.Slices ![0, 0] S1x4096
  slices_S3x4096_o1_0_S1x4096 : S3x4096.Slices ![1, 0] S1x4096
  slices_S3x4096_o2_0_S1x4096 : S3x4096.Slices ![2, 0] S1x4096
  bitsLt_bf16_f32 : FTy.bits .bf16 < FTy.bits .f32
  inb_S8x4096_S3x4096_0_0 : ∀ a, (![0, 0] : Fin 2 → Nat) a + S3x4096.size a ≤ S8x4096.size a
  h_S3x4096 : 0 < S3x4096.numel
  shapeCasts_S3x4096_S3x4096 : S3x4096.ShapeCasts S3x4096
  inb_S8x4096_S4x4096_0_0 : ∀ a, (![0, 0] : Fin 2 → Nat) a + S4x4096.size a ≤ S8x4096.size a
  h_S4x4096 : 0 < S4x4096.numel
  slices_S4x4096_S3x4096_0_0 : S4x4096.Slices ![0, 0] S3x4096
  packedbf16_S8x4096_S4x4096_0_0 : (Rect.unit (s := S8x4096) ![0, 0] S4x4096.size inb_S8x4096_S4x4096_0_0).PackedRows (EltTy.packing .bf16)
  inb_S8x4096_S2x4096_3_0 : ∀ a, (![3, 0] : Fin 2 → Nat) a + S2x4096.size a ≤ S8x4096.size a
  h_S2x4096 : 0 < S2x4096.numel
  shapeCasts_S2x4096_S2x4096 : S2x4096.ShapeCasts S2x4096
  inb_S8x4096_S4x4096_2_0 : ∀ a, (![2, 0] : Fin 2 → Nat) a + S4x4096.size a ≤ S8x4096.size a
  slices_S4x4096_S2x4096_1_0 : S4x4096.Slices ![1, 0] S2x4096
  packedbf16_S8x4096_S4x4096_2_0 : (Rect.unit (s := S8x4096) ![2, 0] S4x4096.size inb_S8x4096_S4x4096_2_0).PackedRows (EltTy.packing .bf16)
  inb_S8x4096_S1x4096_5_0 : ∀ a, (![5, 0] : Fin 2 → Nat) a + S1x4096.size a ≤ S8x4096.size a
  h_S1x4096 : 0 < S1x4096.numel
  shapeCasts_S1x4096_S1x4096 : S1x4096.ShapeCasts S1x4096
  inb_S8x4096_S2x4096_4_0 : ∀ a, (![4, 0] : Fin 2 → Nat) a + S2x4096.size a ≤ S8x4096.size a
  slices_S2x4096_S1x4096_1_0 : S2x4096.Slices ![1, 0] S1x4096
  packedbf16_S8x4096_S2x4096_4_0 : (Rect.unit (s := S8x4096) ![4, 0] S2x4096.size inb_S8x4096_S2x4096_4_0).PackedRows (EltTy.packing .bf16)
  inb_S8x4096_S1x4096_6_0 : ∀ a, (![6, 0] : Fin 2 → Nat) a + S1x4096.size a ≤ S8x4096.size a
  inb_S8x4096_S2x4096_6_0 : ∀ a, (![6, 0] : Fin 2 → Nat) a + S2x4096.size a ≤ S8x4096.size a
  slices_S2x4096_S1x4096_0_0 : S2x4096.Slices ![0, 0] S1x4096
  packedbf16_S8x4096_S2x4096_6_0 : (Rect.unit (s := S8x4096) ![6, 0] S2x4096.size inb_S8x4096_S2x4096_6_0).PackedRows (EltTy.packing .bf16)
  inb_S8x4096_S1x4096_7_0 : ∀ a, (![7, 0] : Fin 2 → Nat) a + S1x4096.size a ≤ S8x4096.size a
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  concatenates_S4096x3_S4096x1_S4096x1_S4096x3_S4096x8_d1 : Shape.Concatenates [S4096x3, S4096x1, S4096x1, S4096x3] S4096x8 1
  inb_S8x4096_S8x2048_0_0 : ∀ a, (![0, 0] : Fin 2 → Nat) a + S8x2048.size a ≤ S8x4096.size a
  h_S8x2048 : 0 < S8x2048.numel
  reduces_S4096x2048_S2048 : S4096x2048.Reduces [0] S2048
  inb_S8x4096_S8x2048_0_2048 : ∀ a, (![0, 2048] : Fin 2 → Nat) a + S8x2048.size a ≤ S8x4096.size a
  reduces_S4096x2048_S4096 : S4096x2048.Reduces [1] S4096
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096 : S1x4096x1.ShapeCasts S4096
  shapeCasts_S4096_S1x4096x1 : S4096.ShapeCasts S1x4096x1
  concatenates_S2048_S2048_S4096_d0 : Shape.Concatenates [S2048, S2048] S4096 0
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  shapeCasts_S4x4096x1_S4x4096 : S4x4096x1.ShapeCasts S4x4096
  shapeCasts_S4x1x4096_S4x4096 : S4x1x4096.ShapeCasts S4x4096
  dot_S4096x8_S8x2048_S4096x2048_1_0_0_1_n_n_wf : DotDims.WF S4096x8 S8x2048 S4096x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S4x4096x3.size a
  hwx0_0 : ∀ i : grid0.Coords, EltTy.bits .f32 = 32 ∨ (Rect.block (s := S4x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S4x4096x1.size a
  hwx0_2 : ∀ i : grid0.Coords, EltTy.bits .f32 = 32 ∨ (Rect.block (s := S4x4096x1) S1x4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S4x1x4096.size a
  hwx0_3 : ∀ i : grid0.Coords, EltTy.bits .f32 = 32 ∨ (Rect.block (s := S4x1x4096) S1x1x4096.size (cc0_transform_3 i) (hinb0_3 i)).WholeWords (EltTy.packing .f32)

variable [Facts₀]

def dot_S4096x8_S8x2048_S4096x2048_1_0_0_1_n_n : DotDims S4096x8 S8x2048 S4096x2048 where
  lhsContracting := [1]
  rhsContracting := [0]
  lhsNonContracting := [0]
  rhsNonContracting := [1]
  lhsBatch := []
  rhsBatch := []
  wf := dot_S4096x8_S8x2048_S4096x2048_1_0_0_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x4096x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.ScratchRows.lean ====
/-
  Five row stores into an 8 x 4096 buffer whose rows are parts of packed words, read back row by row.

  A store of rows that are part of their words is a load of the whole words holding them followed by a store of
  those words with the new rows put in place and the other rows as loaded. Five such stores, in this order,

    rows 0-2 inside the words of rows 0-3,   rows 3-4 inside rows 2-5,   row 5 inside rows 4-5,
    row 6 inside rows 6-7,                   row 7 inside rows 6-7,

  leave every one of the eight rows holding a stored row, whatever the buffer held before: a row that a later
  store carries along unchanged was itself written by an earlier store of the sequence (row 2 is carried by the
  second store, row 4 by the third, row 6 by the fifth), and the rows carried from the prior contents (row 3 by
  the first store, row 5 by the second, row 7 by the fourth) are each overwritten afterwards. This file proves
  that, for any payloads and any prior contents: the contents after the five stores are `rowsOf` of the payloads.
  Nothing here depends on the element type or on any arithmetic.
-/
import Idealize.ShloMosaic.Lib.WritesUnit
import Idealize.ShloMosaic.Lib.Pipeline.FrameBody
import Idealize.ShloMosaic.Lib.ValueIdx

noncomputable section

namespace Cert.ScratchRows

open Idealize.ShloMosaic Idealize.ShloMosaic.ValueIdx

/-- The rank-2 shape with `m` rows and 4096 columns. -/
abbrev Sh (m : Nat) : Shape := ⟨2, ![m, 4096]⟩

section Blend

variable {α : Type}

/-- The column of a rank-2 index, as a number below 4096. -/
abbrev col {m : Nat} (y : (Sh m).Idx) : Fin 4096 := ⟨(y 1).val, idx2_lt1 y⟩

/-- Inside the rows the update occupies, the blend reads the update. -/
theorem blend_row_mem {m k r : Nat} (old : (Sh m).Idx → α) (w : (Sh k).Idx → α)
    (sl : (Sh m).Slices ![r, 0] (Sh k)) (y : (Sh m).Idx) (i : Fin k) (h0 : (y 0).val = r + i.val) :
    updateSlice old w ![r, 0] sl y = w (ix2 i (col y)) := by
  unfold updateSlice
  have hin : ∀ a : Fin (Sh m).rank, (![r, 0] : Fin 2 → Nat) a ≤ (y a).val
      ∧ (y a).val < (![r, 0] : Fin 2 → Nat) a + (Sh k).size (a.cast sl.1.symm) := by
    intro a
    match a with
    | ⟨0, _⟩ =>
      refine ⟨?_, ?_⟩
      · show r ≤ (y 0).val; omega
      · show (y 0).val < r + k; have := i.isLt; omega
    | ⟨1, _⟩ =>
      refine ⟨Nat.zero_le _, ?_⟩
      show (y 1).val < 0 + 4096; have := idx2_lt1 y; omega
  rw [dif_pos hin]
  congr 1
  funext b
  apply Fin.ext
  match b with
  | ⟨0, _⟩ => show (y 0).val - r = i.val; omega
  | ⟨1, _⟩ => show (y 1).val - 0 = (y 1).val; omega

/-- Outside them it reads what was there. -/
theorem blend_row_not_mem {m k r : Nat} (old : (Sh m).Idx → α) (w : (Sh k).Idx → α)
    (sl : (Sh m).Slices ![r, 0] (Sh k)) (y : (Sh m).Idx) (h : (y 0).val < r ∨ r + k ≤ (y 0).val) :
    updateSlice old w ![r, 0] sl y = old y := by
  unfold updateSlice
  rw [dif_neg]
  intro hin
  have h0 := hin (0 : Fin 2)
  have h0' : r ≤ (y 0).val ∧ (y 0).val < r + k := h0
  omega

end Blend

section Store

open View

variable {sig : RefSig} {κ : Kind} {sp : Space} {e : EltTy} {Val : EltTy → Type}
variable (v : View sig κ sp (Sh 8) e) (g : v.ty.Contents Val)

/-- After a store of `k` rows at row `r` of the words of rows `[o, o + W)`, a row the store writes reads the
    stored payload. -/
theorem read_store_new {o W r k : Nat} (inb : ∀ a, (![o, 0] : Fin 2 → Nat) a + (Sh W).size a ≤ (Sh 8).size a)
    (old : (Sh W).Idx → Val e) (P : (Sh k).Idx → Val e) (sl : (Sh W).Slices ![r, 0] (Sh k))
    (L : List (Piece Val (Sh 8) e)) (y : (Sh 8).Idx) (i : Fin k) (h : (y 0).val = o + (r + i.val)) (hW : r + k ≤ W) :
    v.read Val (v.writes Val g ((⟨Rect.unit (s := Sh 8) ![o, 0] (Sh W).size inb, updateSlice old P ![r, 0] sl⟩ :
        Piece Val (Sh 8) e) :: L)) y = P (ix2 i (col y)) := by
  have hi := i.isLt
  refine (read_writes_cons_rows_of_mem v g inb _ L y (ix2 (⟨r + i.val, by omega⟩ : Fin W) (col y)) rfl h rfl).trans ?_
  exact blend_row_mem old P sl _ i rfl

/-- A row of those words that the store does not write reads what the load before it read there. -/
theorem read_store_kept {o W r k : Nat} (inb : ∀ a, (![o, 0] : Fin 2 → Nat) a + (Sh W).size a ≤ (Sh 8).size a)
    (old : (Sh W).Idx → Val e) (P : (Sh k).Idx → Val e) (sl : (Sh W).Slices ![r, 0] (Sh k))
    (L : List (Piece Val (Sh 8) e)) (y : (Sh 8).Idx) (i : Fin W) (h : (y 0).val = o + i.val)
    (hout : i.val < r ∨ r + k ≤ i.val) :
    v.read Val (v.writes Val g ((⟨Rect.unit (s := Sh 8) ![o, 0] (Sh W).size inb, updateSlice old P ![r, 0] sl⟩ :
        Piece Val (Sh 8) e) :: L)) y = old (ix2 i (col y)) := by
  refine (read_writes_cons_rows_of_mem v g inb _ L y (ix2 i (col y)) rfl h rfl).trans ?_
  exact blend_row_not_mem old P sl _ hout

/-- A row outside those words reads what the earlier stores left. -/
theorem read_store_miss {o W r k : Nat} (inb : ∀ a, (![o, 0] : Fin 2 → Nat) a + (Sh W).size a ≤ (Sh 8).size a)
    (old : (Sh W).Idx → Val e) (P : (Sh k).Idx → Val e) (sl : (Sh W).Slices ![r, 0] (Sh k))
    (L : List (Piece Val (Sh 8) e)) (y : (Sh 8).Idx) (h : (y 0).val < o ∨ o + W ≤ (y 0).val) :
    v.read Val (v.writes Val g ((⟨Rect.unit (s := Sh 8) ![o, 0] (Sh W).size inb, updateSlice old P ![r, 0] sl⟩ :
        Piece Val (Sh 8) e) :: L)) y = v.read Val (v.writes Val g L) y :=
  read_writes_cons_rows_of_not_mem v g inb _ L y rfl rfl h

/-- A load of the words of rows `[o, o + W)` reads, at row `i` of them, row `o + i` of the buffer. -/
theorem readAt_rows {o W : Nat} (inb : ∀ a, (![o, 0] : Fin 2 → Nat) a + (Sh W).size a ≤ (Sh 8).size a)
    (i : Fin W) (c : Fin 4096) :
    v.readAt Val (Rect.unit (s := Sh 8) ![o, 0] (Sh W).size inb).toLoadRect g (ix2 i c)
      = v.read Val g (ix2 (⟨o + i.val, by have := inb 0; have h : o + W ≤ 8 := this; have := i.isLt; omega⟩ : Fin 8) c) := by
  rw [View.readAt_apply]
  congr 1
  funext a
  apply Fin.ext
  match a with
  | ⟨0, _⟩ => show o + 1 * i.val = o + i.val; omega
  | ⟨1, _⟩ => show 0 + 1 * c.val = c.val; omega

end Store

/-! ## The five stores -/

section Five

open View

variable {sig : RefSig} {κ : Kind} {sp : Space} {e : EltTy} {Val : EltTy → Type} [∀ e, Nonempty (Val e)]

/-- In-bounds evidence of the four word rectangles, and the evidence that each stored block of rows fits in its words. -/
abbrev Inb (o W : Nat) : Prop := ∀ a, (![o, 0] : Fin 2 → Nat) a + (Sh W).size a ≤ (Sh 8).size a

variable (v : View sig κ sp (Sh 8) e) (f : v.ty.Contents Val)
  (i04 : Inb 0 4) (i24 : Inb 2 4) (i42 : Inb 4 2) (i62 : Inb 6 2)
  (s43 : (Sh 4).Slices ![0, 0] (Sh 3)) (s42 : (Sh 4).Slices ![1, 0] (Sh 2))
  (s21a : (Sh 2).Slices ![0, 0] (Sh 1)) (s21b : (Sh 2).Slices ![1, 0] (Sh 1))
  (P12 : (Sh 3).Idx → Val e) (P13 : (Sh 2).Idx → Val e) (P14 P15 P1 : (Sh 1).Idx → Val e)

/-- The first store: rows 0-2 inside the words of rows 0-3, loaded from the prior contents. -/
abbrev st1 : List (Piece Val (Sh 8) e) :=
  [⟨Rect.unit (s := Sh 8) ![0, 0] (Sh 4).size i04,
    updateSlice (v.readAt Val (Rect.unit (s := Sh 8) ![0, 0] (Sh 4).size i04).toLoadRect f) P12 ![0, 0] s43⟩]

/-- The second: rows 3-4 inside the words of rows 2-5, loaded after the first store. -/
abbrev st2 : List (Piece Val (Sh 8) e) :=
  ⟨Rect.unit (s := Sh 8) ![2, 0] (Sh 4).size i24,
    updateSlice (v.readAt Val (Rect.unit (s := Sh 8) ![2, 0] (Sh 4).size i24).toLoadRect
      (v.writes Val f (st1 v f i04 s43 P12))) P13 ![1, 0] s42⟩ :: st1 v f i04 s43 P12

/-- The third: row 5 inside the words of rows 4-5, which the second store wrote whole. -/
abbrev st3 : List (Piece Val (Sh 8) e) :=
  ⟨Rect.unit (s := Sh 8) ![4, 0] (Sh 2).size i42,
    updateSlice (v.readCov (st2 v f i04 i24 s43 s42 P12 P13) (Rect.unit (s := Sh 8) ![4, 0] (Sh 2).size i42).toLoadRect)
      P14 ![1, 0] s21b⟩ :: st2 v f i04 i24 s43 s42 P12 P13

/-- The fourth: row 6 inside the words of rows 6-7, loaded from the prior contents. -/
abbrev st4 : List (Piece Val (Sh 8) e) :=
  ⟨Rect.unit (s := Sh 8) ![6, 0] (Sh 2).size i62,
    updateSlice (v.readAt Val (Rect.unit (s := Sh 8) ![6, 0] (Sh 2).size i62).toLoadRect f) P15 ![0, 0] s21a⟩
    :: st3 v f i04 i24 i42 s43 s42 s21b P12 P13 P14

/-- The fifth: row 7 inside the words of rows 6-7, which the fourth store wrote whole. -/
abbrev st5 : List (Piece Val (Sh 8) e) :=
  ⟨Rect.unit (s := Sh 8) ![6, 0] (Sh 2).size i62,
    updateSlice (v.readCov (st4 v f i04 i24 i42 i62 s43 s42 s21a s21b P12 P13 P14 P15)
      (Rect.unit (s := Sh 8) ![6, 0] (Sh 2).size i62).toLoadRect) P1 ![1, 0] s21b⟩
    :: st4 v f i04 i24 i42 i62 s43 s42 s21a s21b P12 P13 P14 P15

/-- What the eight rows hold after the five stores: rows 0-2 the first payload, rows 3-4 the second, rows 5, 6, 7
    the third, fourth and fifth. -/
def rowsAt (a : Fin 8) (c : Fin 4096) : Val e :=
  if h : a.val < 3 then P12 (ix2 ⟨a.val, h⟩ c)
  else if h5 : a.val < 5 then P13 (ix2 ⟨a.val - 3, by omega⟩ c)
  else if a.val = 5 then P14 (ix2 (0 : Fin 1) c)
  else if a.val = 6 then P15 (ix2 (0 : Fin 1) c)
  else P1 (ix2 (0 : Fin 1) c)

variable (g : v.ty.Contents Val)

/-- After the first store rows 0-2 hold the first payload, over any prior contents. -/
theorem rows_st1 (a : Fin 8) (c : Fin 4096) (h : a.val < 3) :
    v.read Val (v.writes Val g (st1 v f i04 s43 P12)) (ix2 a c) = rowsAt P12 P13 P14 P15 P1 a c := by
  unfold rowsAt; rw [dif_pos h]
  exact read_store_new v g i04 _ P12 s43 [] (ix2 a c) ⟨a.val, h⟩ (by show a.val = 0 + (0 + a.val); omega) (by omega)

/-- After the second, rows 0-4: row 2, which the second store carries along, was written by the first. -/
theorem rows_st2 (a : Fin 8) (c : Fin 4096) (h : a.val < 5) :
    v.read Val (v.writes Val g (st2 v f i04 i24 s43 s42 P12 P13)) (ix2 a c) = rowsAt P12 P13 P14 P15 P1 a c := by
  by_cases h2 : a.val < 2
  · exact (read_store_miss v g i24 _ P13 s42 _ (ix2 a c) (Or.inl (by show a.val < 2; exact h2))).trans
      (rows_st1 v f i04 s43 P12 P13 P14 P15 P1 g a c (by omega))
  · by_cases h3 : a.val = 2
    · refine (read_store_kept v g i24 _ P13 s42 _ (ix2 a c) (0 : Fin 4) (by show a.val = 2 + 0; omega) (Or.inl (by decide))).trans ?_
      refine (readAt_rows v _ i24 (0 : Fin 4) c).trans ?_
      have ha : a = (⟨2 + (0 : Fin 4).val, by decide⟩ : Fin 8) := Fin.ext h3
      rw [← ha]
      exact rows_st1 v f i04 s43 P12 P13 P14 P15 P1 f a c (by omega)
    · unfold rowsAt; rw [dif_neg (by omega), dif_pos h]
      exact read_store_new v g i24 _ P13 s42 _ (ix2 a c) ⟨a.val - 3, by omega⟩ (by show a.val = 2 + (1 + (a.val - 3)); omega) (by omega)

/-- After the third, rows 0-5: row 4, carried by the third store, was written by the second. -/
theorem rows_st3 (a : Fin 8) (c : Fin 4096) (h : a.val < 6) :
    v.read Val (v.writes Val g (st3 v f i04 i24 i42 s43 s42 s21b P12 P13 P14)) (ix2 a c) = rowsAt P12 P13 P14 P15 P1 a c := by
  by_cases h4 : a.val < 4
  · exact (read_store_miss v g i42 _ P14 s21b _ (ix2 a c) (Or.inl (by show a.val < 4; exact h4))).trans
      (rows_st2 v f i04 i24 s43 s42 P12 P13 P14 P15 P1 g a c (by omega))
  · by_cases h4' : a.val = 4
    · refine (read_store_kept v g i42 _ P14 s21b _ (ix2 a c) (0 : Fin 2) (by show a.val = 4 + 0; omega) (Or.inl (by decide))).trans ?_
      refine (readAt_rows v _ i42 (0 : Fin 2) c).trans ?_
      have ha : a = (⟨4 + (0 : Fin 2).val, by decide⟩ : Fin 8) := Fin.ext h4'
      rw [← ha]
      exact rows_st2 v f i04 i24 s43 s42 P12 P13 P14 P15 P1 v.junk a c (by omega)
    · have h5 : a.val = 5 := by omega
      unfold rowsAt; rw [dif_neg (by omega), dif_neg (by omega), if_pos h5]
      exact read_store_new v g i42 _ P14 s21b _ (ix2 a c) (0 : Fin 1) (by show a.val = 4 + (1 + 0); omega) (by omega)

/-- After the fourth, rows 0-6. -/
theorem rows_st4 (a : Fin 8) (c : Fin 4096) (h : a.val < 7) :
    v.read Val (v.writes Val g (st4 v f i04 i24 i42 i62 s43 s42 s21a s21b P12 P13 P14 P15)) (ix2 a c)
      = rowsAt P12 P13 P14 P15 P1 a c := by
  by_cases h6 : a.val < 6
  · exact (read_store_miss v g i62 _ P15 s21a _ (ix2 a c) (Or.inl (by show a.val < 6; exact h6))).trans
      (rows_st3 v f i04 i24 i42 s43 s42 s21b P12 P13 P14 P15 P1 g a c h6)
  · have h6' : a.val = 6 := by omega
    unfold rowsAt; rw [dif_neg (by omega), dif_neg (by omega), if_neg (by omega), if_pos h6']
    exact read_store_new v g i62 _ P15 s21a _ (ix2 a c) (0 : Fin 1) (by show a.val = 6 + (0 + 0); omega) (by omega)

/-- After the fifth, every row: row 6, carried by the fifth store, was written by the fourth. -/
theorem rows_st5 (a : Fin 8) (c : Fin 4096) :
    v.read Val (v.writes Val g (st5 v f i04 i24 i42 i62 s43 s42 s21a s21b P12 P13 P14 P15 P1)) (ix2 a c)
      = rowsAt P12 P13 P14 P15 P1 a c := by
  have ha := a.isLt
  by_cases h6 : a.val < 6
  · exact (read_store_miss v g i62 _ P1 s21b _ (ix2 a c) (Or.inl (by show a.val < 6; exact h6))).trans
      (rows_st4 v f i04 i24 i42 i62 s43 s42 s21a s21b P12 P13 P14 P15 P1 g a c (by omega))
  · by_cases h6' : a.val = 6
    · refine (read_store_kept v g i62 _ P1 s21b _ (ix2 a c) (0 : Fin 2) (by show a.val = 6 + 0; omega) (Or.inl (by decide))).trans ?_
      refine (readAt_rows v _ i62 (0 : Fin 2) c).trans ?_
      have ha' : a = (⟨6 + (0 : Fin 2).val, by decide⟩ : Fin 8) := Fin.ext h6'
      rw [← ha']
      exact rows_st4 v f i04 i24 i42 i62 s43 s42 s21a s21b P12 P13 P14 P15 P1 v.junk a c (by omega)
    · unfold rowsAt; rw [dif_neg (by omega), dif_neg (by omega), if_neg (by omega), if_neg h6']
      exact read_store_new v g i62 _ P1 s21b _ (ix2 a c) (0 : Fin 1) (by show a.val = 6 + (1 + 0); omega) (by omega)

/-- So a load of any box after the five stores reads `rowsAt` at the box's places. -/
theorem readCov_st5 (B : LoadRect (Sh 8)) (x : B.shape.Idx) :
    v.readCov (st5 v f i04 i24 i42 i62 s43 s42 s21a s21b P12 P13 P14 P15 P1) B x
      = rowsAt P12 P13 P14 P15 P1 (B.idx x 0) (col (B.idx x)) := by
  unfold View.readCov
  rw [View.readAt_apply, eq_ix2 (B.idx x)]
  exact rows_st5 v f i04 i24 i42 i62 s43 s42 s21a s21b P12 P13 P14 P15 P1 v.junk _ _

end Five

end Cert.ScratchRows

end
-- ==== Proof.WordBody.lean ====
/-
  The frame of the program `Kernel`: its body run at one grid point, for any float instance.

  At grid point `b` the body is handed cloud `b` of the first input (4096 points by 3 coordinates), the matching
  block of the second input already transposed and scaled (3 by 4096), two output blocks at any contents, and a
  scratch of 8 by 4096 half-precision words at any contents. It loads the two input blocks, fills the scratch by
  five stores of rows that are parts of packed words, loads the two halves of the scratch back, and stores each
  output block whole. What the scratch holds when it is loaded back is independent of what it held at entry
  (Proof/ScratchRows.lean): eight rows, each a row one of the five stores wrote (`scr`). So each output block ends
  as a pure function of the two input blocks (`out2`, `out3`), and the pipeline's proof data can name them; the
  launch theorem then gives the run of the whole program, and with it the frame.
-/
import proofs.«144934_g68685116998012_cont_9to1_m_1223_26_alg».proof.Proof.Gen.Kernel.Launch
import proofs.«144934_g68685116998012_cont_9to1_m_1223_26_alg».proof.Proof.Gen.Kernel.Skeleton
import proofs.«144934_g68685116998012_cont_9to1_m_1223_26_alg».proof.Proof.Gen.Kernel.Points
import proofs.«144934_g68685116998012_cont_9to1_m_1223_26_alg».proof.Proof.Gen.Kernel.Frame
import proofs.«144934_g68685116998012_cont_9to1_m_1223_26_alg».proof.Proof.ScratchRows
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch and the invariant -/

/-- The scratch, whole. -/
abbrev scM : Memref sig .tc .vmem S8x4096 .bf16 := Memref.whole cc0_scratch0

/-- Between grid points nothing is kept but the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The body's rectangles -/

abbrev rX : Rect S1x4096x3 := Rect.unit (s := S1x4096x3) ![0, 0, 0] S1x4096x3.size inb_S1x4096x3_S1x4096x3_0_0_0
abbrev rY : Rect S1x3x4096 := Rect.unit (s := S1x3x4096) ![0, 0, 0] S1x3x4096.size inb_S1x3x4096_S1x3x4096_0_0_0
abbrev rO2 : Rect S1x4096x1 := Rect.unit (s := S1x4096x1) ![0, 0, 0] S1x4096x1.size inb_S1x4096x1_S1x4096x1_0_0_0
abbrev rO3 : Rect S1x1x4096 := Rect.unit (s := S1x1x4096) ![0, 0, 0] S1x1x4096.size inb_S1x1x4096_S1x1x4096_0_0_0
/-- The left and right halves of the scratch, as the two matrix products read them. -/
abbrev rL : Rect S8x4096 := Rect.unit (s := S8x4096) ![0, 0] S8x2048.size inb_S8x4096_S8x2048_0_0
abbrev rR : Rect S8x4096 := Rect.unit (s := S8x4096) ![0, 2048] S8x2048.size inb_S8x4096_S8x2048_0_2048

theorem hz3 : (![0, 0, 0] : Fin 3 → Nat) = fun _ => 0 := by
  funext a; match a with | ⟨0, _⟩ => rfl | ⟨1, _⟩ => rfl | ⟨2, _⟩ => rfl

/-! ## What the scratch and the outputs hold -/

/-- The scratch when the matrix products read it, from the second input's block: rows 0-2 the block's three rows
    narrowed, rows 3-4 ones, rows 5, 6, 7 the three pieces of the squared norms. -/
def scr (x1 : Vec F S1x3x4096 .f32) : S8x4096.Idx → Elt F .bf16 := fun y =>
  ScratchRows.rowsAt (k0_pay14 (View.ld x1 rY)) (k0_pay15 (F := F)) (k0_pay16 (View.ld x1 rY)) (k0_pay17 (View.ld x1 rY))
    (k0_pay1 (k0_pay13 (View.ld x1 rY))) (y 0) (ScratchRows.col y)

/-- The first output's block after the body. -/
def out2 (x0 : Vec F S1x4096x3 .f32) (x1 : Vec F S1x3x4096 .f32) : Vec F S1x4096x1 .f32 :=
  k0_pay5 (k0_pay7 (View.ld x0 rX)) (View.ld (scr x1) rL) (View.ld (scr x1) rR)

/-- The second output's block after the body. -/
def out3 (x0 : Vec F S1x4096x3 .f32) (x1 : Vec F S1x3x4096 .f32) : Vec F S1x1x4096 .f32 :=
  k0_pay6 (k0_pay7 (View.ld x0 rX)) (View.ld (scr x1) rL) (View.ld (scr x1) rR)

/-- A load of a box of the scratch after the five stores reads `scr` there, whatever the scratch held before. -/
theorem scr_read (v : View sig .tc .vmem S8x4096 .bf16) (f5 : v.ty.Contents (Elt F)) (x1 : Vec F S1x3x4096 .f32)
    (B : Rect S8x4096) :
    v.readCov (ScratchRows.st5 v f5 inb_S8x4096_S4x4096_0_0 inb_S8x4096_S4x4096_2_0 inb_S8x4096_S2x4096_4_0
        inb_S8x4096_S2x4096_6_0 slices_S4x4096_S3x4096_0_0 slices_S4x4096_S2x4096_1_0 slices_S2x4096_S1x4096_0_0
        slices_S2x4096_S1x4096_1_0 (k0_pay14 (View.ld x1 rY)) (k0_pay15 (F := F)) (k0_pay16 (View.ld x1 rY)) (k0_pay17 (View.ld x1 rY))
        (k0_pay1 (k0_pay13 (View.ld x1 rY)))) B.toLoadRect
      = View.ld (scr x1) B :=
  funext fun x => ScratchRows.readCov_st5 v f5 _ _ _ _ _ _ _ _ _ _ _ _ _ B.toLoadRect x

/-! ## The body's triple -/

set_option maxHeartbeats 1000000 in
/-- The body on whole memrefs — the inputs' at contents `x0`, `x1`, the outputs' and the scratch at anything —
    runs to the continuation with the inputs as they were, the outputs at `out2`, `out3` of the inputs, and the
    scratch at some contents. -/
theorem sound_kernel (c : Dev nD) (E : Set ℕ) (i : grid0.Coords)
    (arg1 : Memref sig .tc .vmem S1x4096x3 .f32) (harg1 : arg1.IsWhole) (arg2 : Memref sig .tc .vmem S1x3x4096 .f32) (harg2 : arg2.IsWhole)
    (arg3 : Memref sig .tc .vmem S1x4096x1 .f32) (harg3 : arg3.IsWhole) (arg4 : Memref sig .tc .vmem S1x1x4096 .f32) (harg4 : arg4.IsWhole)
    (arg5 : Memref sig .tc .vmem S8x4096 .bf16) (harg5 : arg5.IsWhole)
    (x0 : Vec F S1x4096x3 .f32) (x1 : Vec F S1x3x4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (out2 x0 x1) ∗ owns (c : Thread nD τ) arg4 fullShare (out3 x0 x1)
            ∗ (∃ d, owns (c : Thread nD τ) arg5 fullShare d)) -∗ K ⟨⟩))
      ⊢ wp frame (wpE (defs₀ (F := F)) Variants.none c none) E (cc0__chamfer_batch_kernel i arg1 harg1 arg2 harg2 arg3 harg3 arg4 harg4 arg5 harg5) K := by
  simp only [cc0__chamfer_batch_kernel_eq_skeleton]; unfold cc0__chamfer_batch_kernel_skel
  unfold owns
  iintro ⟨⟨%f0, %hf0, H0⟩, ⟨%f1, %hf1, H1⟩, ⟨%d2, %f2, -, H2⟩, ⟨%d3, %f3, -, H3⟩, ⟨%d5, %f5, -, H5⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_singleton_self _, View.mem_set_unit_zero hz3 inb_S1x4096x1_S1x4096x1_0_0_0 y⟩)).trans ?_
    refine (View.canon_unit_zero hz3 inb_S1x4096x1_S1x4096x1_0_0_0 _).trans ?_
    exact congrArg₂ (k0_pay5 (k0_pay7 (View.ld (arg1.view.read (Elt F) f0) rX)))
      (scr_read arg5.view f5 (arg2.view.read (Elt F) f1) rL) (scr_read arg5.view f5 (arg2.view.read (Elt F) f1) rR)
  isplitl [H3]
  · iexists _; isplitr
    swap; · iexact H3
    ipureintro
    refine (View.read_writes_eq_canon _ _ _ (fun y => ⟨_, List.mem_singleton_self _, View.mem_set_unit_zero hz3 inb_S1x1x4096_S1x1x4096_0_0_0 y⟩)).trans ?_
    refine (View.canon_unit_zero hz3 inb_S1x1x4096_S1x1x4096_0_0_0 _).trans ?_
    exact congrArg₂ (k0_pay6 (k0_pay7 (View.ld (arg1.view.read (Elt F) f0) rX)))
      (scr_read arg5.view f5 (arg2.view.read (Elt F) f1) rL) (scr_read arg5.view f5 (arg2.view.read (Elt F) f1) rR)
  iexists _; iexists _; isplitr
  swap; · iexact H5
  ipureintro; rfl

/-! ## The pipeline's proof data -/

/-- The proof data of the pipeline on core `c`: the arrays as the region finds them; after the body at point `t`
    each input's buffer at its block and each output's at `out2`, `out3` of the two input blocks; between points
    the scratch at anything and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
    | ⟨3, _⟩ => out3 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]
theorem after0_3 (c : Dev nD) (t : Fin cfg0.N) : (dats m 0 c).after 3 t = out3 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, the scratch comes out of the invariant at some
    contents and goes back at some contents, the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = Pipeline.ΦA spec0 c from rfl, PhiA_eq]
  iintro ⟨⟨HS, HP⟩, Ho, ⟨%d0, H0⟩, ⟨%d1, H1⟩, ⟨%d2, H2⟩, ⟨%d3, H3⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [HS]; · iexact HS
  iintro ⟨H0, H1, H2, H3, HS⟩
  isplitl [HS HP]
  · isplitl [HS]; · iexact HS
    iexact HP
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has each array of the pipeline at what the proof data gives and every other unscoped buffer as the
    lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, nothing faults, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealBody.lean ====
/-
  The frame of the program `KernelIdeal`: its body run at one grid point, for any float instance.

  At grid point `b` the body is handed cloud `b` of the first input (4096 points by 3 coordinates), the matching
  block of the second input already transposed and scaled (3 by 4096), two output blocks at any contents, and a
  scratch of 8 by 4096 half-precision words at any contents. It loads the two input blocks, fills the scratch by
  five stores of rows that are parts of packed words, loads the two halves of the scratch back, and stores each
  output block whole. What the scratch holds when it is loaded back is independent of what it held at entry
  (Proof/ScratchRows.lean): eight rows, each a row one of the five stores wrote (`scr`). So each output block ends
  as a pure function of the two input blocks (`out2`, `out3`), and the pipeline's proof data can name them; the
  launch theorem then gives the run of the whole program, and with it the frame.
-/
import proofs.«144934_g68685116998012_cont_9to1_m_1223_26_alg».proof.Proof.Gen.KernelIdeal.Launch
import proofs.«144934_g68685116998012_cont_9to1_m_1223_26_alg».proof.Proof.Gen.KernelIdeal.Skeleton
import proofs.«144934_g68685116998012_cont_9to1_m_1223_26_alg».proof.Proof.Gen.KernelIdeal.Points
import proofs.«144934_g68685116998012_cont_9to1_m_1223_26_alg».proof.Proof.Gen.KernelIdeal.Frame
import proofs.«144934_g68685116998012_cont_9to1_m_1223_26_alg».proof.Proof.ScratchRows
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch and the invariant -/

/-- The scratch, whole. -/
abbrev scM : Memref sig .tc .vmem S8x4096 .bf16 := Memref.whole cc0_scratch0

/-- Between grid points nothing is kept but the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The body's rectangles -/

abbrev rX : Rect S1x4096x3 := Rect.unit (s := S1x4096x3) ![0, 0, 0] S1x4096x3.size inb_S1x4096x3_S1x4096x3_0_0_0
abbrev rY : Rect S1x3x4096 := Rect.unit (s := S1x3x4096) ![0, 0, 0] S1x3x4096.size inb_S1x3x4096_S1x3x4096_0_0_0
abbrev rO2 : Rect S1x4096x1 := Rect.unit (s := S1x4096x1) ![0, 0, 0] S1x4096x1.size inb_S1x4096x1_S1x4096x1_0_0_0
abbrev rO3 : Rect S1x1x4096 := Rect.unit (s := S1x1x4096) ![0, 0, 0] S1x1x4096.size inb_S1x1x4096_S1x1x4096_0_0_0
/-- The left and right halves of the scratch, as the two matrix products read them. -/
abbrev rL : Rect S8x4096 := Rect.unit (s := S8x4096) ![0, 0] S8x2048.size inb_S8x4096_S8x2048_0_0
abbrev rR : Rect S8x4096 := Rect.unit (s := S8x4096) ![0, 2048] S8x2048.size inb_S8x4096_S8x2048_0_2048

theorem hz3 : (![0, 0, 0] : Fin 3 → Nat) = fun _ => 0 := by
  funext a; match a with | ⟨0, _⟩ => rfl | ⟨1, _⟩ => rfl | ⟨2, _⟩ => rfl

/-! ## What the scratch and the outputs hold -/

/-- The scratch when the matrix products read it, from the second input's block: rows 0-2 the block's three rows
    narrowed, rows 3-4 ones, rows 5, 6, 7 the three pieces of the squared norms. -/
def scr (x1 : Vec F S1x3x4096 .f32) : S8x4096.Idx → Elt F .bf16 := fun y =>
  ScratchRows.rowsAt (k0_pay12 (View.ld x1 rY)) (k0_pay13 (F := F)) (k0_pay14 (View.ld x1 rY)) (k0_pay15 (View.ld x1 rY))
    (k0_pay1 (k0_pay11 (View.ld x1 rY))) (y 0) (ScratchRows.col y)

/-- The first output's block after the body. -/
def out2 (x0 : Vec F S1x4096x3 .f32) (x1 : Vec F S1x3x4096 .f32) : Vec F S1x4096x1 .f32 :=
  k0_pay5 (k0_pay7 (View.ld x0 rX)) (View.ld (scr x1) rL) (View.ld (scr x1) rR)

/-- The second output's block after the body. -/
def out3 (x0 : Vec F S1x4096x3 .f32) (x1 : Vec F S1x3x4096 .f32) : Vec F S1x1x4096 .f32 :=
  k0_pay6 (k0_pay7 (View.ld x0 rX)) (View.ld (scr x1) rL) (View.ld (scr x1) rR)

/-- A load of a box of the scratch after the five stores reads `scr` there, whatever the scratch held before. -/
theorem scr_read (v : View sig .tc .vmem S8x4096 .bf16) (f5 : v.ty.Contents (Elt F)) (x1 : Vec F S1x3x4096 .f32)
    (B : Rect S8x4096) :
    v.readCov (ScratchRows.st5 v f5 inb_S8x4096_S4x4096_0_0 inb_S8x4096_S4x4096_2_0 inb_S8x4096_S2x4096_4_0
        inb_S8x4096_S2x4096_6_0 slices_S4x4096_S3x4096_0_0 slices_S4x4096_S2x4096_1_0 slices_S2x4096_S1x4096_0_0
        slices_S2x4096_S1x4096_1_0 (k0_pay12 (View.ld x1 rY)) (k0_pay13 (F := F)) (k0_pay14 (View.ld x1 rY)) (k0_pay15 (View.ld x1 rY))
        (k0_pay1 (k0_pay11 (View.ld x1 rY)))) B.toLoadRect
      = View.ld (scr x1) B :=
  funext fun x => ScratchRows.readCov_st5 v f5 _ _ _ _ _ _ _ _ _ _ _ _ _ B.toLoadRect x

/-! ## The body's triple -/

set_option maxHeartbeats 1000000 in
/-- The body on whole memrefs — the inputs' at contents `x0`, `x1`, the outputs' and the scratch at anything —
    runs to the continuation with the inputs as they were, the outputs at `out2`, `out3` of the inputs, and the
    scratch at some contents. -/
theorem sound_kernel (c : Dev nD) (E : Set ℕ) (i : grid0.Coords)
    (arg1 : Memref sig .tc .vmem S1x4096x3 .f32) (harg1 : arg1.IsWhole) (arg2 : Memref sig .tc .vmem S1x3x4096 .f32) (harg2 : arg2.IsWhole)
    (arg3 : Memref sig .tc .vmem S1x4096x1 .f32) (harg3 : arg3.IsWhole) (arg4 : Memref sig .tc .vmem S1x1x4096 .f32) (harg4 : arg4.IsWhole)
    (arg5 : Memref sig .tc .vmem S8x4096 .bf16) (harg5 : arg5.IsWhole)
    (x0 : Vec F S1x4096x3 .f32) (x1 : Vec F S1x3x4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (out2 x0 x1) ∗ owns (c : Thread nD τ) arg4 fullShare (out3 x0 x1)
            ∗ (∃ d, owns (c : Thread nD τ) arg5 fullShare d)) -∗ K ⟨⟩))
      ⊢ wp frame (wpE (defs₀ (F := F)) Variants.none c none) E (cc0__chamfer_batch_kernel i arg1 harg1 arg2 harg2 arg3 harg3 arg4 harg4 arg5 harg5) K := by
  simp only [cc0__chamfer_batch_kernel_eq_skeleton]; unfold cc0__chamfer_batch_kernel_skel
  unfold owns
  iintro ⟨⟨%f0, %hf0, H0⟩, ⟨%f1, %hf1, H1⟩, ⟨%d2, %f2, -, H2⟩, ⟨%d3, %f3, -, H3⟩, ⟨%d5, %f5, -, H5⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => ⟨_, List.mem_singleton_self _, View.mem_set_unit_zero hz3 inb_S1x4096x1_S1x4096x1_0_0_0 y⟩)).trans ?_
    refine (View.canon_unit_zero hz3 inb_S1x4096x1_S1x4096x1_0_0_0 _).trans ?_
    exact congrArg₂ (k0_pay5 (k0_pay7 (View.ld (arg1.view.read (Elt F) f0) rX)))
      (scr_read arg5.view f5 (arg2.view.read (Elt F) f1) rL) (scr_read arg5.view f5 (arg2.view.read (Elt F) f1) rR)
  isplitl [H3]
  · iexists _; isplitr
    swap; · iexact H3
    ipureintro
    refine (View.read_writes_eq_canon _ _ _ (fun y => ⟨_, List.mem_singleton_self _, View.mem_set_unit_zero hz3 inb_S1x1x4096_S1x1x4096_0_0_0 y⟩)).trans ?_
    refine (View.canon_unit_zero hz3 inb_S1x1x4096_S1x1x4096_0_0_0 _).trans ?_
    exact congrArg₂ (k0_pay6 (k0_pay7 (View.ld (arg1.view.read (Elt F) f0) rX)))
      (scr_read arg5.view f5 (arg2.view.read (Elt F) f1) rL) (scr_read arg5.view f5 (arg2.view.read (Elt F) f1) rR)
  iexists _; iexists _; isplitr
  swap; · iexact H5
  ipureintro; rfl

/-! ## The pipeline's proof data -/

/-- The proof data of the pipeline on core `c`: the arrays as the region finds them; after the body at point `t`
    each input's buffer at its block and each output's at `out2`, `out3` of the two input blocks; between points
    the scratch at anything and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
    | ⟨3, _⟩ => out3 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out2 (iblk m c 0 t) (iblk m c 1 t) := by dsimp only [dats]
theorem after0_3 (c : Dev nD) (t : Fin cfg0.N) : (dats m 0 c).after 3 t = out3 (iblk m c 0 t) (iblk m c 1 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, the scratch comes out of the invariant at some
    contents and goes back at some contents, the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc = Pipeline.ΦA spec0 c from rfl, PhiA_eq]
  iintro ⟨⟨HS, HP⟩, Ho, ⟨%d0, H0⟩, ⟨%d1, H1⟩, ⟨%d2, H2⟩, ⟨%d3, H3⟩⟩
  iapply (sound_kernel c Set.univ (grid0.coords t) _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [HS]; · iexact HS
  iintro ⟨H0, H1, H2, H3, HS⟩
  isplitl [HS HP]
  · isplitl [HS]; · iexact HS
    iexact HP
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has each array of the pipeline at what the proof data gives and every other unscoped buffer as the
    lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, nothing faults, and its two argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.IdealBlocks.lean ====
/-
  The idealized kernel's run, read as values.

  Grid point `b` of the pipeline handles batch `b`: its input blocks are cloud `b` of the first argument and
  batch `b` of the transposed, scaled second argument; its two output blocks are row `b` of the two result arrays,
  whole in their other axes. So the four points' blocks tile each result array, and after the run each array is one
  function of the arrays the region found: at batch `b` the body's output for that batch's input blocks (`arr2`,
  `arr3`). The second operand the region finds is what the host lines before it computed — the second argument
  transposed and multiplied by the constant the program spells —, and the two results of the program are the two
  arrays reshaped by the host lines after it.
-/
import proofs.«144934_g68685116998012_cont_9to1_m_1223_26_alg».proof.Proof.IdealBody
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Cert.KernelIdeal.Body
open Idealize.ShloMosaic Idealize.ShloMosaic.TcCoe Idealize.ShloMosaic.ValueIdx Idealize.ShloMosaic.StableHlo
open Idealize.SL.Sem
open Idealize.ShloMosaic.Pipeline (Dat)

variable {F : FTy → Type} [FloatOps F]
variable (m : (ℓ : Loc nD τ sig) → Buf (Elt F) ℓ) (ρ : Dev nD → PrngReg)

/-! ## Blocks of the two operands, and the result arrays -/

/-- Cloud `b` of the first operand, as the block the body loads. -/
def blkX (A0 : S4x4096x3.Idx → Elt F .f32) (b : Fin 4) : Vec F S1x4096x3 .f32 := fun j => A0 (ix3 b (j 1) (j 2))
/-- Batch `b` of the second operand (three rows of 4096), as the block the body loads. -/
def blkY (A1 : S4x3x4096.Idx → Elt F .f32) (b : Fin 4) : Vec F S1x3x4096 .f32 := fun j => A1 (ix3 b (j 1) (j 2))

/-- The first result array: at batch `b` the body's first output for that batch's blocks. -/
def arr2 (A0 : S4x4096x3.Idx → Elt F .f32) (A1 : S4x3x4096.Idx → Elt F .f32) : S4x4096x1.Idx → Elt F .f32 :=
  fun i => out2 (blkX A0 (i 0)) (blkY A1 (i 0)) (ix3 (0 : Fin 1) (i 1) (i 2))
/-- The second result array. -/
def arr3 (A0 : S4x4096x3.Idx → Elt F .f32) (A1 : S4x3x4096.Idx → Elt F .f32) : S4x1x4096.Idx → Elt F .f32 :=
  fun i => out3 (blkX A0 (i 0)) (blkY A1 (i 0)) (ix3 (0 : Fin 1) (i 1) (i 2))

/-- `arr2` at an array index whose batch is `b` and whose other coordinates are those of the block index `j`. -/
theorem arr2_at (A0 : S4x4096x3.Idx → Elt F .f32) (A1 : S4x3x4096.Idx → Elt F .f32) (i : S4x4096x1.Idx) (b : Fin 4)
    (j : S1x4096x1.Idx) (h0 : (i 0).val = b.val) (h1 : (i 1).val = (j 1).val) (h2 : (i 2).val = (j 2).val) :
    arr2 A0 A1 i = out2 (blkX A0 b) (blkY A1 b) j := by
  unfold arr2
  have hb : i 0 = b := Fin.ext h0
  have hj : ix3 (0 : Fin 1) (i 1) (i 2) = j := funext fun a => Fin.ext (by
    match a with
    | ⟨0, _⟩ => show 0 = (j 0).val; have hj0 : (j 0).val < 1 := (j 0).isLt; omega
    | ⟨1, _⟩ => exact h1
    | ⟨2, _⟩ => exact h2)
  rw [hb]
  exact congrArg (out2 (blkX A0 b) (blkY A1 b)) hj

/-- The same for `arr3`. -/
theorem arr3_at (A0 : S4x4096x3.Idx → Elt F .f32) (A1 : S4x3x4096.Idx → Elt F .f32) (i : S4x1x4096.Idx) (b : Fin 4)
    (j : S1x1x4096.Idx) (h0 : (i 0).val = b.val) (h1 : (i 1).val = (j 1).val) (h2 : (i 2).val = (j 2).val) :
    arr3 A0 A1 i = out3 (blkX A0 b) (blkY A1 b) j := by
  unfold arr3
  have hb : i 0 = b := Fin.ext h0
  have hj : ix3 (0 : Fin 1) (i 1) (i 2) = j := funext fun a => Fin.ext (by
    match a with
    | ⟨0, _⟩ => show 0 = (j 0).val; have hj0 : (j 0).val < 1 := (j 0).isLt; omega
    | ⟨1, _⟩ => exact h1
    | ⟨2, _⟩ => exact h2)
  rw [hb]
  exact congrArg (out3 (blkX A0 b) (blkY A1 b)) hj

/-- The batch a grid point handles. -/
def bOf (t : Fin cfg0.N) : Fin 4 := ⟨t.val, by have h : t.val < grid0.N := t.isLt; rw [N_0] at h; exact h⟩

/-- Every window's block index at point `t` is `(t, 0, 0)` (decided over the four points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The first input window's block at point `t` is cloud `t` of its array. -/
theorem iblk0_eq (c : Dev nD) (t : Fin cfg0.N) : iblk m c 0 t = blkX (V m c main_arg0) (bOf t) := by
  obtain ⟨⟨e0, e1, e2⟩, -⟩ := idx_facts t
  funext j
  show V m c main_arg0 (((cfg0.win 0).blk t).view.emb j) = V m c main_arg0 (ix3 (bOf t) (j 1) (j 2))
  congr 1
  funext a; apply Fin.ext
  match a with
  | ⟨0, _⟩ => show win0_0.index t (0 : Fin 3) * 1 + 1 * (j 0).val = t.val; have hj : (j 0).val < 1 := (j 0).isLt; omega
  | ⟨1, _⟩ => show win0_0.index t (1 : Fin 3) * 4096 + 1 * (j 1).val = (j 1).val; omega
  | ⟨2, _⟩ => show win0_0.index t (2 : Fin 3) * 3 + 1 * (j 2).val = (j 2).val; omega

/-- The second's is batch `t` of its array. -/
theorem iblk1_eq (c : Dev nD) (t : Fin cfg0.N) : iblk m c 1 t = blkY (V m c main_call0_v2) (bOf t) := by
  obtain ⟨-, ⟨e0, e1, e2⟩, -⟩ := idx_facts t
  funext j
  show V m c main_call0_v2 (((cfg0.win 1).blk t).view.emb j) = V m c main_call0_v2 (ix3 (bOf t) (j 1) (j 2))
  congr 1
  funext a; apply Fin.ext
  match a with
  | ⟨0, _⟩ => show win0_1.index t (0 : Fin 3) * 1 + 1 * (j 0).val = t.val; have hj : (j 0).val < 1 := (j 0).isLt; omega
  | ⟨1, _⟩ => show win0_1.index t (1 : Fin 3) * 3 + 1 * (j 1).val = (j 1).val; omega
  | ⟨2, _⟩ => show win0_1.index t (2 : Fin 3) * 4096 + 1 * (j 2).val = (j 2).val; omega

/-! ## What each point writes back -/

/-- Point `t` writes back block `t` of `arr2` of the arrays the region found. -/
theorem flushed2_eq (c : Dev nD) (t : Fin cfg0.N) :
    (dats m 0 c).flushed 2 t = ((cfg0.win 2).blk t).view.read (Elt F) (arr2 (V m c main_arg0) (V m c main_call0_v2)) := by
  show (cfg0.win 2).cut (grid0.coords t) ((dats m 0 c).after 2 t) = _
  rw [after0_2, iblk0_eq, iblk1_eq]
  obtain ⟨-, -, ⟨e0, e1, e2⟩, -⟩ := idx_facts t
  funext j
  have ht : (bOf t).val = t.val := rfl
  show out2 (blkX (V m c main_arg0) (bOf t)) (blkY (V m c main_call0_v2) (bOf t)) ((cfg0.win 2).xinj (grid0.coords t) j) = _
  have h0 : ((((cfg0.win 2).blk t).view.emb j) 0).val = (bOf t).val := by
    show win0_2.index t (0 : Fin 3) * 1 + 1 * (j 0).val = (bOf t).val; have hj : (j 0).val < 1 := (j 0).isLt; omega
  have h1 : ((((cfg0.win 2).blk t).view.emb j) 1).val = (((cfg0.win 2).xinj (grid0.coords t) j) 1).val := by
    show win0_2.index t (1 : Fin 3) * 4096 + 1 * (j 1).val = (j 1).val; omega
  have h2 : ((((cfg0.win 2).blk t).view.emb j) 2).val = (((cfg0.win 2).xinj (grid0.coords t) j) 2).val := by
    show win0_2.index t (2 : Fin 3) * 1 + 1 * (j 2).val = (j 2).val; omega
  have e := arr2_at (V m c main_arg0) (V m c main_call0_v2) (((cfg0.win 2).blk t).view.emb j) (bOf t)
    ((cfg0.win 2).xinj (grid0.coords t) j) h0 h1 h2
  rw [View.read_apply, e]
  exact (cast_eq _ _).symm

/-- and block `t` of `arr3`. -/
theorem flushed3_eq (c : Dev nD) (t : Fin cfg0.N) :
    (dats m 0 c).flushed 3 t = ((cfg0.win 3).blk t).view.read (Elt F) (arr3 (V m c main_arg0) (V m c main_call0_v2)) := by
  show (cfg0.win 3).cut (grid0.coords t) ((dats m 0 c).after 3 t) = _
  rw [after0_3, iblk0_eq, iblk1_eq]
  obtain ⟨-, -, -, ⟨e0, e1, e2⟩⟩ := idx_facts t
  funext j
  have ht : (bOf t).val = t.val := rfl
  show out3 (blkX (V m c main_arg0) (bOf t)) (blkY (V m c main_call0_v2) (bOf t)) ((cfg0.win 3).xinj (grid0.coords t) j) = _
  exact (arr3_at (V m c main_arg0) (V m c main_call0_v2) (((cfg0.win 3).blk t).view.emb j) (bOf t) ((cfg0.win 3).xinj (grid0.coords t) j)
    (by show win0_3.index t (0 : Fin 3) * 1 + 1 * (j 0).val = (bOf t).val; have hj : (j 0).val < 1 := (j 0).isLt; omega)
    (by show win0_3.index t (1 : Fin 3) * 1 + 1 * (j 1).val = (j 1).val; omega)
    (by show win0_3.index t (2 : Fin 3) * 4096 + 1 * (j 2).val = (j 2).val; omega)).symm

/-! ## The blocks tile the arrays -/

theorem mem_blk2 (t : Fin cfg0.N) (i : S4x4096x1.Idx) :
    i ∈ ((cfg0.win 2).blk t).view.set ↔ ∀ a : Fin 3, win0_2.index t a * S1x4096x1.size a ≤ (i a).val
      ∧ (i a).val < win0_2.index t a * S1x4096x1.size a + S1x4096x1.size a := by
  show i ∈ ((View.whole main_v0_0).slice (win0_2.rect t)).set ↔ _
  rw [View.set_slice_whole, Rect.mem_set_unit]
  exact Iff.rfl

theorem mem_blk3 (t : Fin cfg0.N) (i : S4x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v0_1).slice (win0_3.rect t)).set ↔ _
  rw [View.set_slice_whole, Rect.mem_set_unit]
  exact Iff.rfl

/-- The point of an array index's batch. -/
def tOf (b : Nat) (hb : b < 4) : Fin cfg0.N := ⟨b, by show b < grid0.N; rw [N_0]; exact hb⟩

/-- Every index of the first result array lies in the block of its batch's point. -/
theorem cover2 (i : S4x4096x1.Idx) : ∃ t : Fin cfg0.N, (cfg0.win 2).flush t = true ∧ i ∈ ((cfg0.win 2).blk t).view.set := by
  have hi0 : (i 0).val < 4 := (i 0).isLt
  refine ⟨tOf (i 0).val hi0, flush0_2 _, ?_⟩
  rw [mem_blk2]
  obtain ⟨-, -, ⟨e0, e1, e2⟩, -⟩ := idx_facts (tOf (i 0).val hi0)
  have ht : (tOf (i 0).val hi0).val = (i 0).val := rfl
  intro a
  match a with
  | ⟨0, _⟩ => show win0_2.index (tOf (i 0).val hi0) (0 : Fin 3) * 1 ≤ (i 0).val ∧ (i 0).val < win0_2.index (tOf (i 0).val hi0) (0 : Fin 3) * 1 + 1; omega
  | ⟨1, _⟩ => show win0_2.index (tOf (i 0).val hi0) (1 : Fin 3) * 4096 ≤ (i 1).val ∧ (i 1).val < win0_2.index (tOf (i 0).val hi0) (1 : Fin 3) * 4096 + 4096; have h1 : (i 1).val < 4096 := (i 1).isLt; omega
  | ⟨2, _⟩ => show win0_2.index (tOf (i 0).val hi0) (2 : Fin 3) * 1 ≤ (i 2).val ∧ (i 2).val < win0_2.index (tOf (i 0).val hi0) (2 : Fin 3) * 1 + 1; have h2 : (i 2).val < 1 := (i 2).isLt; omega

theorem cover3 (i : S4x1x4096.Idx) : ∃ t : Fin cfg0.N, (cfg0.win 3).flush t = true ∧ i ∈ ((cfg0.win 3).blk t).view.set := by
  have hi0 : (i 0).val < 4 := (i 0).isLt
  refine ⟨tOf (i 0).val hi0, flush0_3 _, ?_⟩
  rw [mem_blk3]
  obtain ⟨-, -, -, ⟨e0, e1, e2⟩⟩ := idx_facts (tOf (i 0).val hi0)
  have ht : (tOf (i 0).val hi0).val = (i 0).val := rfl
  intro a
  match a with
  | ⟨0, _⟩ => show win0_3.index (tOf (i 0).val hi0) (0 : Fin 3) * 1 ≤ (i 0).val ∧ (i 0).val < win0_3.index (tOf (i 0).val hi0) (0 : Fin 3) * 1 + 1; omega
  | ⟨1, _⟩ => show win0_3.index (tOf (i 0).val hi0) (1 : Fin 3) * 1 ≤ (i 1).val ∧ (i 1).val < win0_3.index (tOf (i 0).val hi0) (1 : Fin 3) * 1 + 1; have h1 : (i 1).val < 1 := (i 1).isLt; omega
  | ⟨2, _⟩ => show win0_3.index (tOf (i 0).val hi0) (2 : Fin 3) * 4096 ≤ (i 2).val ∧ (i 2).val < win0_3.index (tOf (i 0).val hi0) (2 : Fin 3) * 4096 + 4096; have h2 : (i 2).val < 4096 := (i 2).isLt; omega

/-- The first result array after the run. -/
theorem final2 (c : Dev nD) : (dats m 0 c).arrAt 2 cfg0.N = arr2 (V m c main_arg0) (V m c main_call0_v2) :=
  (dats m 0 c).arrAt_eq_of_cover 2 (arr2 (V m c main_arg0) (V m c main_call0_v2)) (fun t _ => flushed2_eq m c t) cover2

/-- The second. -/
theorem final3 (c : Dev nD) : (dats m 0 c).arrAt 3 cfg0.N = arr3 (V m c main_arg0) (V m c main_call0_v2) :=
  (dats m 0 c).arrAt_eq_of_cover 3 (arr3 (V m c main_arg0) (V m c main_call0_v2)) (fun t _ => flushed3_eq m c t) cover3

/-! ## The host lines around the region -/

/-- The second operand as the region finds it: the second argument transposed, times the constant the program
    spells, as the four host lines before the region compute it. -/
theorem V_v2 (c : Dev nD) :
    (V m c main_call0_v2 : S4x3x4096.Idx → Elt F .f32)
      = mulf (broadcastInDim S4x3x4096 ![] bcast_S_S4x3x4096 (constant (F := F) S_ .f32 0xC0000000#32))
          (transpose S4x3x4096 [0, 2, 1] (m ((c : Thread nD τ).loc main_arg1)) transposes_S4x4096x3_S4x3x4096_0_2_1) := by
  show StableHlo.after hostOps0 (fun b => m (c, b)) (Proc.devRef .tc main_call0_v2) = _
  after_results
  rfl

/-- The second operand, as a function of the second argument. -/
def scaledT (x1 : S4x4096x3.Idx → Elt F .f32) : S4x3x4096.Idx → Elt F .f32 :=
  mulf (broadcastInDim S4x3x4096 ![] bcast_S_S4x3x4096 (constant (F := F) S_ .f32 0xC0000000#32))
    (transpose S4x3x4096 [0, 2, 1] x1 transposes_S4x4096x3_S4x3x4096_0_2_1)

/-- The program's first result as a function of the two arguments: the first result array, reshaped. -/
def res1 (x0 x1 : S4x4096x3.Idx → Elt F .f32) : S4x4096.Idx → Elt F .f32 :=
  shapeCast S4x4096 (arr2 x0 (scaledT x1)) shapeCasts_S4x4096x1_S4x4096
/-- The second. -/
def res2 (x0 x1 : S4x4096x3.Idx → Elt F .f32) : S4x4096.Idx → Elt F .f32 :=
  shapeCast S4x4096 (arr3 x0 (scaledT x1)) shapeCasts_S4x1x4096_S4x4096

/-- The first host line after the region leaves in the first result buffer the first result array reshaped. -/
theorem tail1 (c : Dev nD) :
    Pipeline.afterTail₀ cfgs (dats m) 0 (V0 m) [hostOps1] c main_v1
      = res1 (m ((c : Thread nD τ).loc main_arg0)) (m ((c : Thread nD τ).loc main_arg1)) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0_0)
      = arr2 (m ((c : Thread nD τ).loc main_arg0)) (scaledT (m ((c : Thread nD τ).loc main_arg1))) :=
    (Pipeline.withArrays_arr spec0 launch0.win.arr_inj c _ _ 2).trans
      ((final2 m c).trans (by rw [V_main_arg0, V_v2]; rfl))
  rw [e]
  rfl

/-- The second host line leaves the second result array reshaped in the second result buffer. -/
theorem tail2 (c : Dev nD) :
    Pipeline.afterTail₀ cfgs (dats m) 0 (V0 m) [hostOps1] c main_v2
      = res2 (m ((c : Thread nD τ).loc main_arg0)) (m ((c : Thread nD τ).loc main_arg1)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v0_1)
      = arr3 (m ((c : Thread nD τ).loc main_arg0)) (scaledT (m ((c : Thread nD τ).loc main_arg1))) :=
    (Pipeline.withArrays_arr spec0 launch0.win.arr_inj c _ _ 3).trans
      ((final3 m c).trans (by rw [V_main_arg0, V_v2]; rfl))
  rw [e]
  rfl

/-! ## The run, read -/

/-- Every weakly fair execution of the program terminates with its two results at `res1`, `res2` of the two
    arguments, and the arguments unchanged. -/
theorem run : θ_run defs (onTc (τ := τ) (main (F := F))) ⟨m, fun _ => 0, ρ⟩ fun r => ∀ c : Dev nD,
      r.2.mem ((c.tc : Thread nD τ).loc main_v1) = res1 (m ((c : Thread nD τ).loc main_arg0)) (m ((c : Thread nD τ).loc main_arg1))
      ∧ r.2.mem ((c.tc : Thread nD τ).loc main_v2) = res2 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 (Pipeline.mem_restRefs_of main_v1 (by decide) (by decide))).trans (tail1 m c),
     ((h c).2 main_v2 (Pipeline.mem_restRefs_of main_v2 (by decide) (by decide))).trans (tail2 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Blocks

end
-- ==== Proof.IdealRhs.lean ====
/-
  What the matrix products' right-hand operand holds, entry by entry.

  The 8 x 4096 operand is built from the second cloud's block Y (3 x 4096, one column per point, already scaled).
  Rows 0, 1, 2 are Y's rows; rows 3 and 4 are the constant one; row 5 is h = (1/4) (Y0² + Y1² + Y2²), column by column;
  row 6 is h - h and row 7 is (h - h) - (h - h), the two remainders of splitting h into three narrower summands, which on
  exact values are written as those differences. The two products read the left and the right half of the columns.
-/
import proofs.«144934_g68685116998012_cont_9to1_m_1223_26_alg».proof.Proof.IdealBody
import Idealize.ShloMosaic.Lib.ValueLayout
import Idealize.ShloMosaic.Lib.ValueIdx
import Idealize.ShloMosaic.Lib.Pipeline.Value

noncomputable section

namespace Cert.KernelIdeal.Rhs

open Cert.KernelIdeal Cert.KernelIdeal.Gen Cert.KernelIdeal.Body Idealize.ShloMosaic Idealize.ShloMosaic.ValueIdx

variable (Y : Vec Ideal S1x3x4096 .f32)

/-- A quarter of the squared norm of column `c` of the block. -/
def hY (c : Fin 4096) : EReal := Ideal.ofBits .f32 0x3E800000#32 * ((Y (ix3 (0 : Fin 1) (0 : Fin 3) c) * Y (ix3 (0 : Fin 1) (0 : Fin 3) c) + Y (ix3 (0 : Fin 1) (1 : Fin 3) c) * Y (ix3 (0 : Fin 1) (1 : Fin 3) c)) + Y (ix3 (0 : Fin 1) (2 : Fin 3) c) * Y (ix3 (0 : Fin 1) (2 : Fin 3) c))

/-- Entry (q, c) of the operand. -/
def rhsAt (q : Fin 8) (c : Fin 4096) : EReal :=
  if h : q.val < 3 then Y (ix3 (0 : Fin 1) (⟨q.val, h⟩ : Fin 3) c)
  else if q.val < 5 then Ideal.ofBits .bf16 0x3F80#16
  else if q.val = 5 then hY Y c
  else if q.val = 6 then hY Y c - hY Y c
  else (hY Y c - hY Y c) - (hY Y c - hY Y c)

/-- The block with its leading axis of extent one dropped, at row `k` and column `c`. -/
theorem rows_apply (k : Fin 3) (c : Fin 4096) : k0_pay8 (View.ld Y rY) (ix2 k c) = Y (ix3 (0 : Fin 1) k c) := by
  unfold k0_pay8
  rw [View.ld_unit_zero hz3]
  exact shapeCast_1ab_ab_apply Y _ k c

/-- Row `r` of it, sliced out as a one-row matrix, at column `c`. -/
theorem slice_row (r : Nat) (hr : r < 3) (h : S3x4096.Slices ![r, 0] S1x4096) (c : Fin 4096) :
    extractStridedSlice S1x4096 ![r, 0] (k0_pay8 (View.ld Y rY)) h (ix2 (0 : Fin 1) c)
      = Y (ix3 (0 : Fin 1) (⟨r, hr⟩ : Fin 3) c) := by
  refine (extractStridedSlice_apply _ _ h _ (ix2 (⟨r, hr⟩ : Fin 3) c) (fun a => ?_)).trans (rows_apply Y _ c)
  match a with
  | ⟨0, _⟩ => show r = r + 0; omega
  | ⟨1, _⟩ => show c.val = 0 + c.val; omega

/-- A cast of a shape to itself reads through. -/
theorem cast_self_apply {s : Shape} {α : Type} (v : s.Idx → α) (h : s.ShapeCasts s) (i : s.Idx) :
    shapeCast s v h i = v i := congrFun (shapeCast_self v h) i

/-- The quarter of the squared norms, as the body computes it from the three rows. -/
theorem pay9_apply (c : Fin 4096) : k0_pay9 (View.ld Y rY) (ix2 (0 : Fin 1) c) = hY Y c := by
  have s0 : extractStridedSlice S1x4096 ![0, 0] (k0_pay8 (View.ld Y rY)) slices_S3x4096_o0_0_S1x4096 (ix2 (0 : Fin 1) c)
      = Y (ix3 (0 : Fin 1) (0 : Fin 3) c) := slice_row Y 0 (by decide) _ c
  have s1 : extractStridedSlice S1x4096 ![1, 0] (k0_pay8 (View.ld Y rY)) slices_S3x4096_o1_0_S1x4096 (ix2 (0 : Fin 1) c)
      = Y (ix3 (0 : Fin 1) (1 : Fin 3) c) := slice_row Y 1 (by decide) _ c
  have s2 : extractStridedSlice S1x4096 ![2, 0] (k0_pay8 (View.ld Y rY)) slices_S3x4096_o2_0_S1x4096 (ix2 (0 : Fin 1) c)
      = Y (ix3 (0 : Fin 1) (2 : Fin 3) c) := slice_row Y 2 (by decide) _ c
  unfold k0_pay9 hY
  simp only [mulf_apply, addf_apply, broadcast_apply, s0, s1, s2]
  rfl

/-- The first remainder. -/
theorem pay10_apply (c : Fin 4096) : k0_pay10 (View.ld Y rY) (ix2 (0 : Fin 1) c) = hY Y c - hY Y c := by
  unfold k0_pay10
  show k0_pay9 (View.ld Y rY) (ix2 (0 : Fin 1) c) - k0_pay9 (View.ld Y rY) (ix2 (0 : Fin 1) c) = _
  rw [pay9_apply]

/-- The second remainder. -/
theorem pay11_apply (c : Fin 4096) :
    k0_pay11 (View.ld Y rY) (ix2 (0 : Fin 1) c) = (hY Y c - hY Y c) - (hY Y c - hY Y c) := by
  unfold k0_pay11
  show k0_pay10 (View.ld Y rY) (ix2 (0 : Fin 1) c) - k0_pay10 (View.ld Y rY) (ix2 (0 : Fin 1) c) = _
  rw [pay10_apply]

/-- Rows 0-2 as stored. -/
theorem pay12_apply (k : Fin 3) (c : Fin 4096) : k0_pay12 (View.ld Y rY) (ix2 k c) = Y (ix3 (0 : Fin 1) k c) := by
  unfold k0_pay12
  refine (cast_self_apply _ _ _).trans ?_
  exact rows_apply Y k c

/-- Rows 3-4 as stored: the constant one. -/
theorem pay13_apply (i : Fin 2) (c : Fin 4096) : k0_pay13 (F := Ideal) (ix2 i c) = Ideal.ofBits .bf16 0x3F80#16 := by
  unfold k0_pay13
  refine (cast_self_apply _ _ _).trans ?_
  rfl

/-- Row 5 as stored. -/
theorem pay14_apply (c : Fin 4096) : k0_pay14 (View.ld Y rY) (ix2 (0 : Fin 1) c) = hY Y c := by
  unfold k0_pay14
  refine (cast_self_apply _ _ _).trans ?_
  exact pay9_apply Y c

/-- Row 6 as stored. -/
theorem pay15_apply (c : Fin 4096) : k0_pay15 (View.ld Y rY) (ix2 (0 : Fin 1) c) = hY Y c - hY Y c := by
  unfold k0_pay15
  refine (cast_self_apply _ _ _).trans ?_
  exact pay10_apply Y c

/-- Row 7 as stored. -/
theorem pay1_apply (c : Fin 4096) :
    k0_pay1 (k0_pay11 (View.ld Y rY)) (ix2 (0 : Fin 1) c) = (hY Y c - hY Y c) - (hY Y c - hY Y c) := by
  unfold k0_pay1
  refine (cast_self_apply _ _ _).trans ?_
  exact pay11_apply Y c

/-- The operand at entry (q, c). -/
theorem scr_apply (q : Fin 8) (c : Fin 4096) : scr Y (ix2 q c) = rhsAt Y q c := by
  unfold scr
  show ScratchRows.rowsAt (Val := Elt Ideal) (e := .bf16) (k0_pay12 (View.ld Y rY)) (k0_pay13 (F := Ideal)) (k0_pay14 (View.ld Y rY))
    (k0_pay15 (View.ld Y rY)) (k0_pay1 (k0_pay11 (View.ld Y rY))) q c = _
  unfold ScratchRows.rowsAt rhsAt
  by_cases h3 : q.val < 3
  · rw [dif_pos h3, dif_pos h3]
    exact pay12_apply Y _ c
  · rw [dif_neg h3, dif_neg h3]
    by_cases h5 : q.val < 5
    · rw [dif_pos h5, if_pos h5]
      exact pay13_apply _ c
    · rw [dif_neg h5, if_neg h5]
      by_cases e5 : q.val = 5
      · rw [if_pos e5, if_pos e5]
        exact pay14_apply Y c
      · rw [if_neg e5, if_neg e5]
        by_cases e6 : q.val = 6
        · rw [if_pos e6, if_pos e6]
          exact pay15_apply Y c
        · rw [if_neg e6, if_neg e6]
          exact pay1_apply Y c

/-- The left half of the columns, as the first product reads it. -/
theorem ldL_apply (q : Fin 8) (k : Fin 2048) : View.ld (scr Y) rL (ix2 q k) = rhsAt Y q ⟨k.val, by omega⟩ := by
  have e : rL.idx (ix2 q k) = ix2 q (⟨k.val, by omega⟩ : Fin 4096) := funext fun a => Fin.ext (by
    match a with
    | ⟨0, _⟩ => show 0 + 1 * q.val = q.val; omega
    | ⟨1, _⟩ => show 0 + 1 * k.val = k.val; omega)
  show scr Y (rL.idx (ix2 q k)) = _
  rw [e]
  exact scr_apply Y q _

/-- The right half, as the second product reads it. -/
theorem ldR_apply (q : Fin 8) (k : Fin 2048) : View.ld (scr Y) rR (ix2 q k) = rhsAt Y q ⟨2048 + k.val, by omega⟩ := by
  have e : rR.idx (ix2 q k) = ix2 q (⟨2048 + k.val, by omega⟩ : Fin 4096) := funext fun a => Fin.ext (by
    match a with
    | ⟨0, _⟩ => show 0 + 1 * q.val = q.val; omega
    | ⟨1, _⟩ => show 2048 + 1 * k.val = 2048 + k.val; omega)
  show scr Y (rR.idx (ix2 q k)) = _
  rw [e]
  exact scr_apply Y q _

end Cert.KernelIdeal.Rhs

end
-- ==== Proof.IdealMatmul.lean ====
/-
  The body's two matrix products, entry by entry.

  Each product multiplies the 4096 x 8 left operand by an 8 x 2048 right operand into a zero accumulator, so on exact
  values its entry (n, k) is the sum over the eight contraction positions q of left (n, q) times right (q, k).
-/
import proofs.«144934_g68685116998012_cont_9to1_m_1223_26_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Matmul

open Cert.KernelIdeal Cert.KernelIdeal.Gen Idealize.ShloMosaic Idealize.ShloMosaic.ValueIdx

/-- The left operand's row is the result's row. -/
theorem lhs_0 (i : S4096x2048.Idx) (q : dot_S4096x8_S8x2048_S4096x2048_1_0_0_1_n_n.contr.Idx) :
    (dot_S4096x8_S8x2048_S4096x2048_1_0_0_1_n_n.lhsIdx i q 0).val = (i 0).val := by
  unfold DotDims.lhsIdx
  rw [dif_neg (show ¬(0 : Fin S4096x8.rank) ∈ dot_S4096x8_S8x2048_S4096x2048_1_0_0_1_n_n.lhsBatch by decide), dif_pos (show (0 : Fin S4096x8.rank) ∈ dot_S4096x8_S8x2048_S4096x2048_1_0_0_1_n_n.lhsNonContracting by decide)]
  rfl

/-- The left operand's column is the contraction position. -/
theorem lhs_1 (i : S4096x2048.Idx) (q : dot_S4096x8_S8x2048_S4096x2048_1_0_0_1_n_n.contr.Idx) :
    (dot_S4096x8_S8x2048_S4096x2048_1_0_0_1_n_n.lhsIdx i q 1).val = (q ⟨0, by decide⟩).val :=
  dot_S4096x8_S8x2048_S4096x2048_1_0_0_1_n_n.lhsIdx_val_of_single rfl i q

/-- The right operand's row is the contraction position. -/
theorem rhs_0 (i : S4096x2048.Idx) (q : dot_S4096x8_S8x2048_S4096x2048_1_0_0_1_n_n.contr.Idx) :
    (dot_S4096x8_S8x2048_S4096x2048_1_0_0_1_n_n.rhsIdx i q 0).val = (q ⟨0, by decide⟩).val :=
  dot_S4096x8_S8x2048_S4096x2048_1_0_0_1_n_n.rhsIdx_val_of_single rfl i q

/-- The right operand's column is the result's column. -/
theorem rhs_1 (i : S4096x2048.Idx) (q : dot_S4096x8_S8x2048_S4096x2048_1_0_0_1_n_n.contr.Idx) :
    (dot_S4096x8_S8x2048_S4096x2048_1_0_0_1_n_n.rhsIdx i q 1).val = (i 1).val := by
  unfold DotDims.rhsIdx
  rw [dif_neg (show ¬(1 : Fin S8x2048.rank) ∈ dot_S4096x8_S8x2048_S4096x2048_1_0_0_1_n_n.rhsBatch by decide), dif_pos (show (1 : Fin S8x2048.rank) ∈ dot_S4096x8_S8x2048_S4096x2048_1_0_0_1_n_n.rhsNonContracting by decide)]
  rfl

/-- A product of any 4096 x 8 and 8 x 2048 operands into the zero accumulator, at entry (n, k). -/
theorem matmul_zero_apply (L : FVec Ideal S4096x8 .bf16) (V : FVec Ideal S8x2048 .bf16) (n : Fin 4096) (k : Fin 2048) :
    FloatOps.matmul dot_S4096x8_S8x2048_S4096x2048_1_0_0_1_n_n none L V (constant S4096x2048 .f32 0x00000000#32) (ix2 n k)
      = ∑ q : Fin 8, L (ix2 n q) * V (ix2 q k) := by
  rw [Ideal.matmul_constant_zero_apply, ← Equiv.sum_comp (ValueIdx.contrEquiv1 dot_S4096x8_S8x2048_S4096x2048_1_0_0_1_n_n 8 rfl rfl).symm]
  refine Finset.sum_congr rfl fun q _ => ?_
  have hq := ValueIdx.contrEquiv1_symm_val dot_S4096x8_S8x2048_S4096x2048_1_0_0_1_n_n 8 rfl rfl q
  have el : dot_S4096x8_S8x2048_S4096x2048_1_0_0_1_n_n.lhsIdx (ix2 n k) ((ValueIdx.contrEquiv1 dot_S4096x8_S8x2048_S4096x2048_1_0_0_1_n_n 8 rfl rfl).symm q) = ix2 n q := funext fun a => Fin.ext (by
    match a with
    | ⟨0, _⟩ => exact lhs_0 _ _
    | ⟨1, _⟩ => exact (lhs_1 _ _).trans hq)
  have er : dot_S4096x8_S8x2048_S4096x2048_1_0_0_1_n_n.rhsIdx (ix2 n k) ((ValueIdx.contrEquiv1 dot_S4096x8_S8x2048_S4096x2048_1_0_0_1_n_n 8 rfl rfl).symm q) = ix2 q k := funext fun a => Fin.ext (by
    match a with
    | ⟨0, _⟩ => exact (rhs_0 _ _).trans hq
    | ⟨1, _⟩ => exact rhs_1 _ _)
  rw [el, er]

/-- The first product at entry (n, k). -/
theorem pay3_apply (v1 : FVec Ideal S4096x3 .f32) (V : Vec Ideal S8x2048 .bf16) (n : Fin 4096) (k : Fin 2048) :
    k0_pay3 v1 V (ix2 n k) = ∑ q : Fin 8, k0_pay2 v1 (ix2 n q) * V (ix2 q k) := by
  unfold k0_pay3
  exact matmul_zero_apply (k0_pay2 v1) V n k

/-- The second product at entry (n, k). -/
theorem pay4_apply (v1 : FVec Ideal S4096x3 .f32) (V : Vec Ideal S8x2048 .bf16) (n : Fin 4096) (k : Fin 2048) :
    k0_pay4 v1 V (ix2 n k) = ∑ q : Fin 8, k0_pay2 v1 (ix2 n q) * V (ix2 q k) := by
  unfold k0_pay4
  exact matmul_zero_apply (k0_pay2 v1) V n k

end Cert.KernelIdeal.Matmul

end
-- ==== Proof.IdealLhs.lean ====
/-
  What the matrix products' left-hand operand holds, entry by entry.

  The 4096 x 8 operand is built from the first cloud's block X (4096 points by 3 coordinates). Columns 0, 1, 2 are the
  coordinates; column 3 is the squared norm s = X0² + X1² + X2²; column 4 is s - s, the remainder of splitting s into two
  narrower summands, which on exact values is written as that difference; columns 5, 6, 7 are the constant one.
-/
import proofs.«144934_g68685116998012_cont_9to1_m_1223_26_alg».proof.Proof.IdealBody
import Idealize.ShloMosaic.Lib.ValueLayout
import Idealize.ShloMosaic.Lib.ValueIdx
import Idealize.ShloMosaic.Lib.Pipeline.Value

noncomputable section

namespace Cert.KernelIdeal.Lhs

open Cert.KernelIdeal Cert.KernelIdeal.Gen Cert.KernelIdeal.Body Idealize.ShloMosaic Idealize.ShloMosaic.ValueIdx

/-! ## For any 4096 x 3 matrix of coordinates -/

section Any

variable (v1 : FVec Ideal S4096x3 .f32)

/-- The squared norm of row `n`. -/
def sqRow (n : Fin 4096) : EReal :=
  (v1 (ix2 n (0 : Fin 3)) * v1 (ix2 n (0 : Fin 3)) + v1 (ix2 n (1 : Fin 3)) * v1 (ix2 n (1 : Fin 3)))
    + v1 (ix2 n (2 : Fin 3)) * v1 (ix2 n (2 : Fin 3))

/-- Entry (n, q) of the operand built from `v1`. -/
def genAt (n : Fin 4096) (q : Fin 8) : EReal :=
  if h : q.val < 3 then v1 (ix2 n (⟨q.val, h⟩ : Fin 3))
  else if q.val = 3 then sqRow v1 n
  else if q.val = 4 then sqRow v1 n - sqRow v1 n
  else Ideal.ofBits .bf16 0x3F80#16

/-- Column `K` sliced out as a one-column matrix, at row `n`. -/
theorem col_apply (K : Nat) (hK : K < 3) (h : S4096x3.Slices ![0, K] S4096x1) (n : Fin 4096) :
    extractStridedSlice S4096x1 ![0, K] v1 h (ix2 n (0 : Fin 1)) = v1 (ix2 n (⟨K, hK⟩ : Fin 3)) :=
  extractStridedSlice_apply ![0, K] v1 h (ix2 n (0 : Fin 1)) (ix2 n (⟨K, hK⟩ : Fin 3)) (fun a => by
    match a with
    | ⟨0, _⟩ => show n.val = 0 + n.val; omega
    | ⟨1, _⟩ => show K = K + 0; omega)

/-- The column of squared norms, as the body computes it from the three coordinate columns. -/
def colSq : FVec Ideal S4096x1 .f32 :=
  addf (addf (mulf (extractStridedSlice S4096x1 ![0, 0] v1 slices_S4096x3_o0_0_S4096x1)
        (extractStridedSlice S4096x1 ![0, 0] v1 slices_S4096x3_o0_0_S4096x1))
      (mulf (extractStridedSlice S4096x1 ![0, 1] v1 slices_S4096x3_o0_1_S4096x1)
        (extractStridedSlice S4096x1 ![0, 1] v1 slices_S4096x3_o0_1_S4096x1)))
    (mulf (extractStridedSlice S4096x1 ![0, 2] v1 slices_S4096x3_o0_2_S4096x1)
      (extractStridedSlice S4096x1 ![0, 2] v1 slices_S4096x3_o0_2_S4096x1))

theorem colSq_apply (n : Fin 4096) : colSq v1 (ix2 n (0 : Fin 1)) = sqRow v1 n := by
  have c0 : extractStridedSlice S4096x1 ![0, 0] v1 slices_S4096x3_o0_0_S4096x1 (ix2 n (0 : Fin 1)) = v1 (ix2 n (0 : Fin 3)) :=
    col_apply v1 0 (by decide) slices_S4096x3_o0_0_S4096x1 n
  have c1 : extractStridedSlice S4096x1 ![0, 1] v1 slices_S4096x3_o0_1_S4096x1 (ix2 n (0 : Fin 1)) = v1 (ix2 n (1 : Fin 3)) :=
    col_apply v1 1 (by decide) slices_S4096x3_o0_1_S4096x1 n
  have c2 : extractStridedSlice S4096x1 ![0, 2] v1 slices_S4096x3_o0_2_S4096x1 (ix2 n (0 : Fin 1)) = v1 (ix2 n (2 : Fin 3)) :=
    col_apply v1 2 (by decide) slices_S4096x3_o0_2_S4096x1 n
  unfold colSq sqRow
  simp only [mulf_apply, addf_apply, c0, c1, c2]

/-- The four pieces the operand is put together from, side by side. -/
def pA : FVec Ideal S4096x3 .bf16 := truncf .bf16 v1 bitsLt_bf16_f32
def pB : FVec Ideal S4096x1 .bf16 := truncf .bf16 (colSq v1) bitsLt_bf16_f32
def pC : FVec Ideal S4096x1 .bf16 := truncf .bf16 (subf (colSq v1) (colSq v1)) bitsLt_bf16_f32
def pD : FVec Ideal S4096x3 .bf16 := broadcast S4096x3 (Scalar.ofBits (F := Ideal) .bf16 0x3F80#16)

abbrev pieces : List ((s : Shape) × (s.Idx → Ideal .bf16)) :=
  [⟨S4096x3, pA v1⟩, ⟨S4096x1, pB v1⟩, ⟨S4096x1, pC v1⟩, ⟨S4096x3, pD⟩]

theorem pay2_eq : k0_pay2 v1
    = concatenate S4096x8 1 (pieces v1) concatenates_S4096x3_S4096x1_S4096x1_S4096x3_S4096x8_d1 := rfl

/-- The operand at entry (n, q): the piece whose columns hold `q`, at the column's place inside it. -/
theorem pay2_gen (n : Fin 4096) (q : Fin 8) : k0_pay2 v1 (ix2 n q) = genAt v1 n q := by
  rw [pay2_eq]
  unfold genAt
  have hq := q.isLt
  by_cases h3 : q.val < 3
  · rw [dif_pos h3]
    exact concatenate_apply_piece (1 : Fin S4096x8.rank) (pieces v1)
      concatenates_S4096x3_S4096x1_S4096x1_S4096x3_S4096x8_d1 (ix2 n q) 0 (by show 0 < 4; omega) S4096x3 (pA v1) rfl rfl 0 rfl
      (ix2 n (⟨q.val, h3⟩ : Fin 3))
      (fun b hb => by
        match b with
        | ⟨0, _⟩ => rfl
        | ⟨1, _⟩ => exact absurd rfl hb)
      (by show 0 + q.val = q.val; omega)
  · rw [dif_neg h3]
    by_cases e3 : q.val = 3
    · rw [if_pos e3]
      refine (concatenate_apply_piece (1 : Fin S4096x8.rank) (pieces v1)
        concatenates_S4096x3_S4096x1_S4096x1_S4096x3_S4096x8_d1 (ix2 n q) 1 (by show 1 < 4; omega) S4096x1 (pB v1) rfl rfl 3 rfl
        (ix2 n (0 : Fin 1))
        (fun b hb => by
          match b with
          | ⟨0, _⟩ => rfl
          | ⟨1, _⟩ => exact absurd rfl hb)
        (by show 3 + 0 = q.val; omega)).trans ?_
      exact colSq_apply v1 n
    · rw [if_neg e3]
      by_cases e4 : q.val = 4
      · rw [if_pos e4]
        refine (concatenate_apply_piece (1 : Fin S4096x8.rank) (pieces v1)
          concatenates_S4096x3_S4096x1_S4096x1_S4096x3_S4096x8_d1 (ix2 n q) 2 (by show 2 < 4; omega) S4096x1 (pC v1) rfl rfl 4 rfl
          (ix2 n (0 : Fin 1))
          (fun b hb => by
            match b with
            | ⟨0, _⟩ => rfl
            | ⟨1, _⟩ => exact absurd rfl hb)
          (by show 4 + 0 = q.val; omega)).trans ?_
        show colSq v1 (ix2 n (0 : Fin 1)) - colSq v1 (ix2 n (0 : Fin 1)) = _
        rw [colSq_apply]
      · rw [if_neg e4]
        refine (concatenate_apply_piece (1 : Fin S4096x8.rank) (pieces v1)
          concatenates_S4096x3_S4096x1_S4096x1_S4096x3_S4096x8_d1 (ix2 n q) 3 (by show 3 < 4; omega) S4096x3 pD rfl rfl 5 rfl
          (ix2 n (⟨q.val - 5, by omega⟩ : Fin 3))
          (fun b hb => by
            match b with
            | ⟨0, _⟩ => rfl
            | ⟨1, _⟩ => exact absurd rfl hb)
          (by show 5 + (q.val - 5) = q.val; omega)).trans ?_
        rfl

end Any

/-! ## For the first cloud's block -/

variable (X : Vec Ideal S1x4096x3 .f32)

/-- The squared norm of point `n`. -/
def sqX (n : Fin 4096) : EReal := (X (ix3 (0 : Fin 1) n (0 : Fin 3)) * X (ix3 (0 : Fin 1) n (0 : Fin 3)) + X (ix3 (0 : Fin 1) n (1 : Fin 3)) * X (ix3 (0 : Fin 1) n (1 : Fin 3))) + X (ix3 (0 : Fin 1) n (2 : Fin 3)) * X (ix3 (0 : Fin 1) n (2 : Fin 3))

/-- Entry (n, q) of the operand. -/
def lhsAt (n : Fin 4096) (q : Fin 8) : EReal :=
  if h : q.val < 3 then X (ix3 (0 : Fin 1) n (⟨q.val, h⟩ : Fin 3))
  else if q.val = 3 then sqX X n
  else if q.val = 4 then sqX X n - sqX X n
  else Ideal.ofBits .bf16 0x3F80#16

/-- The block with its leading axis of extent one dropped, at point `n` and coordinate `k`. -/
theorem pay7_apply (n : Fin 4096) (k : Fin 3) : k0_pay7 (View.ld X rX) (ix2 n k) = X (ix3 (0 : Fin 1) n k) := by
  unfold k0_pay7
  rw [View.ld_unit_zero hz3]
  exact shapeCast_1ab_ab_apply X _ n k

theorem sqRow_eq (n : Fin 4096) : sqRow (k0_pay7 (View.ld X rX)) n = sqX X n := by
  unfold sqRow sqX
  rw [pay7_apply X n 0, pay7_apply X n 1, pay7_apply X n 2]

/-- The operand at entry (n, q). -/
theorem pay2_apply (n : Fin 4096) (q : Fin 8) : k0_pay2 (k0_pay7 (View.ld X rX)) (ix2 n q) = lhsAt X n q := by
  refine (pay2_gen (k0_pay7 (View.ld X rX)) n q).trans ?_
  unfold genAt lhsAt
  rw [sqRow_eq X n]
  by_cases h3 : q.val < 3
  · rw [dif_pos h3, dif_pos h3]
    exact pay7_apply X n _
  · rw [dif_neg h3, dif_neg h3]

end Cert.KernelIdeal.Lhs

end
-- ==== Proof.LibInfHalves.lean ====
/-
  The least value of a finite family, taken in two halves.

  For a family indexed by the first n + n natural numbers, the least value over the pairwise minima of entry k and entry
  n + k (k below n) is the least value over the whole family: every entry is the left or the right member of exactly one
  pair. Stated for any meet-semilattice with a top element, where the least value over a finite index set is the finite
  infimum; then at 4096 = 2048 + 2048 on the extended reals, where the meet is the minimum. Also: a finite infimum does
  not change when the family is re-indexed along a bijection.
-/
import Mathlib.Order.Fin.Basic
import Mathlib.Data.Fintype.Basic
import Mathlib.Data.Finset.Lattice.Fold
import Mathlib.Data.EReal.Basic

namespace Cert.InfHalves

/-- The infimum over the pairwise meets of entry `k` and entry `n + k` is the infimum over all `n + n` entries. -/
theorem inf_halves {α : Type*} [SemilatticeInf α] [OrderTop α] {n m : ℕ} (hm : m = n + n) (f : Fin m → α) :
    (Finset.univ.inf fun k : Fin n => f ⟨k.val, by omega⟩ ⊓ f ⟨n + k.val, by omega⟩) = Finset.univ.inf f := by
  apply le_antisymm
  · refine Finset.le_inf fun i _ => ?_
    by_cases hi : i.val < n
    · exact (Finset.inf_le (Finset.mem_univ (⟨i.val, hi⟩ : Fin n))).trans inf_le_left
    · have hlt : i.val - n < n := by omega
      refine (Finset.inf_le (Finset.mem_univ (⟨i.val - n, hlt⟩ : Fin n))).trans ?_
      refine inf_le_right.trans (le_of_eq (congrArg f (Fin.ext ?_)))
      show n + (i.val - n) = i.val
      omega
  · exact Finset.le_inf fun k _ => le_inf (Finset.inf_le (Finset.mem_univ _)) (Finset.inf_le (Finset.mem_univ _))

/-- On the extended reals, for 4096 entries: the least of the 2048 minima of entry `k` and entry `2048 + k` is the
    least of all entries. -/
theorem inf_halves_2048 (f : Fin 4096 → EReal) :
    (Finset.univ.inf fun k : Fin 2048 => min (f ⟨k.val, by omega⟩) (f ⟨2048 + k.val, by omega⟩)) = Finset.univ.inf f :=
  inf_halves (n := 2048) (m := 4096) rfl f

/-- A finite infimum is unchanged by re-indexing the family along a bijection. -/
theorem inf_comp_equiv {α ι κ : Type*} [SemilatticeInf α] [OrderTop α] [Fintype ι] [Fintype κ] (e : ι ≃ κ) (f : κ → α) :
    (Finset.univ.inf fun i : ι => f (e i)) = Finset.univ.inf f := by
  apply le_antisymm
  · refine Finset.le_inf fun k _ => ?_
    have h := Finset.inf_le (f := fun i : ι => f (e i)) (Finset.mem_univ (e.symm k))
    rwa [Equiv.apply_symm_apply] at h
  · exact Finset.le_inf fun i _ => Finset.inf_le (Finset.mem_univ _)

end Cert.InfHalves
-- ==== Proof.Consts.lean ====
/-
  The float constants the two programs spell, as the extended reals their bit patterns denote: 2, -2, 1/4 and
  +infinity in single precision, 1 in bfloat16. Stated once, here, so that no other module unfolds the decoding of
  a bit pattern.
-/
import Idealize.ShloMosaic.PureOps.Ideal

noncomputable section

namespace Cert.Consts

open Idealize.ShloMosaic

/-- The pattern of `2.0` denotes 2. -/
theorem ofBits_two : Ideal.ofBits .f32 0x40000000#32 = ((2 : ℝ) : EReal) := by
  simp [Ideal.ofBits, Ideal.ieee, -EReal.coe_mul]; norm_num

/-- The pattern of `-2.0` denotes -2. -/
theorem ofBits_neg_two : Ideal.ofBits .f32 0xC0000000#32 = ((-2 : ℝ) : EReal) := by
  simp [Ideal.ofBits, Ideal.ieee, -EReal.coe_mul]; norm_num

/-- The pattern of `0.25` denotes 1/4. -/
theorem ofBits_quarter : Ideal.ofBits .f32 0x3E800000#32 = ((1 / 4 : ℝ) : EReal) := by
  simp [Ideal.ofBits, Ideal.ieee, -EReal.coe_mul]; norm_num

/-- The pattern of `+inf` denotes the top element. -/
theorem ofBits_inf : Ideal.ofBits .f32 0x7F800000#32 = (⊤ : EReal) := by
  simp [Ideal.ofBits, Ideal.ieee]

/-- The bfloat16 pattern of `1.0` denotes 1. -/
theorem ofBits_one_bf16 : Ideal.ofBits .bf16 0x3F80#16 = ((1 : ℝ) : EReal) := by
  simp [Ideal.ofBits, Ideal.ieee, -EReal.coe_mul]; norm_num

end Cert.Consts

end
-- ==== Proof.IdealMins.lean ====
/-
  The two output blocks of the body, entry by entry, as least values of the matrix-product entries.

  The body forms the two 4096 x 2048 products P (against the left half of the right-hand operand's columns) and Q
  (against the right half). The first output takes, for each row n, the least over the 2048 columns k of
  min (P n k) (Q n k): the least over all 4096 columns of the full product. The second output takes, for each of the
  2048 columns of P and then of Q, the least over the 4096 rows, and puts the two runs of 2048 results one after the
  other: entry c is the least over the rows of column c of the full product. A minimum from +infinity over a finite index
  set is the infimum over it.
-/
import proofs.«144934_g68685116998012_cont_9to1_m_1223_26_alg».proof.Proof.IdealBody
import proofs.«144934_g68685116998012_cont_9to1_m_1223_26_alg».proof.Proof.IdealRhs
import proofs.«144934_g68685116998012_cont_9to1_m_1223_26_alg».proof.Proof.IdealMatmul
import proofs.«144934_g68685116998012_cont_9to1_m_1223_26_alg».proof.Proof.IdealLhs
import proofs.«144934_g68685116998012_cont_9to1_m_1223_26_alg».proof.Proof.LibInfHalves
import proofs.«144934_g68685116998012_cont_9to1_m_1223_26_alg».proof.Proof.Consts
import Idealize.ShloMosaic.PureOps.Reduce
import Idealize.ShloMosaic.PureOps.Ideal.Laws
import Idealize.ShloMosaic.Lib.ValueIdx
import Idealize.ShloMosaic.Lib.Pipeline.Value

noncomputable section

namespace Cert.KernelIdeal.Mins

open Cert.KernelIdeal Cert.KernelIdeal.Gen Cert.KernelIdeal.Body Idealize.ShloMosaic Idealize.ShloMosaic.ValueIdx

/-! ## Reading the casts, the minima and the concatenation at an index -/

/-- A minimum from the top element over a finite index set is the infimum over it. -/
theorem fold_min_top {ι : Type} [Fintype ι] (f : ι → EReal) :
    (Finset.univ : Finset ι).fold min (⊤ : EReal) f = Finset.univ.inf f := rfl

/-- A vector of 4096 entries cast to a column block, at row `n`. -/
theorem cast_col_apply (z : FVec Ideal S4096 .f32) (h : S4096.ShapeCasts S1x4096x1) (n : Fin 4096) :
    shapeCast S1x4096x1 z h (ix3 (0 : Fin 1) n (0 : Fin 1)) = z (ix1 n) :=
  shapeCast_apply z h (ix3 (0 : Fin 1) n (0 : Fin 1)) (ix1 n) (by
    rw [Shape.rowMajor_val_one, Shape.rowMajor_val_three]
    show n.val = (0 * 4096 + n.val) * 1 + 0
    omega)

/-- A vector of 4096 entries cast to a row block, at column `c`. -/
theorem cast_row_apply (z : FVec Ideal S4096 .f32) (h : S4096.ShapeCasts S1x1x4096) (c : Fin 4096) :
    shapeCast S1x1x4096 z h (ix3 (0 : Fin 1) (0 : Fin 1) c) = z (ix1 c) :=
  shapeCast_apply z h (ix3 (0 : Fin 1) (0 : Fin 1) c) (ix1 c) (by
    rw [Shape.rowMajor_val_one, Shape.rowMajor_val_three]
    show c.val = (0 * 1 + 0) * 4096 + c.val
    omega)

/-- A minimum reduction over one axis, on exact values: the fold of `min` from the accumulator's value over that axis's
    coordinates. -/
theorem minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row `n` of a 4096 x 2048 matrix with column `k` put back is (n, k). -/
theorem lift_col (h : S4096x2048.Reduces [1] S4096) (n : Fin 4096) (k : Fin (S4096x2048.size 1)) :
    h.lift (ix1 n) k = ix2 n (⟨k.val, k.isLt⟩ : Fin 2048) := by
  funext c; apply Fin.ext
  fin_cases c <;> rfl

/-- Column `k` of it with row `n` put back is (n, k). -/
theorem lift_row (h : S4096x2048.Reduces [0] S2048) (k : Fin 2048) (n : Fin (S4096x2048.size 0)) :
    h.lift (ix1 k) n = ix2 (⟨n.val, n.isLt⟩ : Fin 4096) k := by
  funext c; apply Fin.ext
  fin_cases c <;> rfl

/-- The least of each row of a 4096 x 2048 matrix, from +infinity. -/
theorem rowMin_apply (M : FVec Ideal S4096x2048 .f32) (hφ : FKind.Formats .f32)
    (hacc : (0x7F800000#32 : BitVec FTy.f32.bits) = FKind.minimumf.neutral .f32 hφ) (n : Fin 4096) :
    multiReduction .minimumf [1] S4096 M 0x7F800000#32 reduces_S4096x2048_S4096 hφ hacc (ix1 n)
      = Finset.univ.inf fun k : Fin 2048 => M (ix2 n k) := by
  refine (minimumf_single M 0x7F800000#32 reduces_S4096x2048_S4096 hφ hacc (ix1 n)).trans ?_
  have hf : (M ∘ reduces_S4096x2048_S4096.lift (ix1 n)) = fun k : Fin 2048 => M (ix2 n k) :=
    funext fun k => congrArg M (lift_col reduces_S4096x2048_S4096 n k)
  rw [hf]
  show Finset.fold min (Ideal.ofBits .f32 0x7F800000#32) _ _ = _
  rw [Cert.Consts.ofBits_inf]
  exact fold_min_top _

/-- The least of each column of a 4096 x 2048 matrix, from +infinity. -/
theorem colMin_apply (M : FVec Ideal S4096x2048 .f32) (hφ : FKind.Formats .f32)
    (hacc : (0x7F800000#32 : BitVec FTy.f32.bits) = FKind.minimumf.neutral .f32 hφ) (k : Fin 2048) :
    multiReduction .minimumf [0] S2048 M 0x7F800000#32 reduces_S4096x2048_S2048 hφ hacc (ix1 k)
      = Finset.univ.inf fun n : Fin 4096 => M (ix2 n k) := by
  refine (minimumf_single M 0x7F800000#32 reduces_S4096x2048_S2048 hφ hacc (ix1 k)).trans ?_
  have hf : (M ∘ reduces_S4096x2048_S2048.lift (ix1 k)) = fun n : Fin 4096 => M (ix2 n k) :=
    funext fun n => congrArg M (lift_row reduces_S4096x2048_S2048 k n)
  rw [hf]
  show Finset.fold min (Ideal.ofBits .f32 0x7F800000#32) _ _ = _
  rw [Cert.Consts.ofBits_inf]
  exact fold_min_top _

/-- Two vectors of 2048 entries one after the other, at a place in the first. -/
theorem cat_left_apply (u w : FVec Ideal S2048 .f32) (h : Shape.Concatenates [S2048, S2048] S4096 0) (c : Fin 4096)
    (hc : c.val < 2048) :
    concatenate S4096 0 [⟨S2048, u⟩, ⟨S2048, w⟩] h (ix1 c) = u (ix1 (⟨c.val, hc⟩ : Fin 2048)) :=
  concatenate_pair_apply_left (0 : Fin S4096.rank) u w h (ix1 c) rfl (ix1 (⟨c.val, hc⟩ : Fin 2048)) (fun b => by
    match b with
    | ⟨0, _⟩ => rfl)

/-- … and at a place in the second. -/
theorem cat_right_apply (u w : FVec Ideal S2048 .f32) (h : Shape.Concatenates [S2048, S2048] S4096 0) (c : Fin 4096)
    (hc : ¬ c.val < 2048) :
    concatenate S4096 0 [⟨S2048, u⟩, ⟨S2048, w⟩] h (ix1 c) = w (ix1 (⟨c.val - 2048, by omega⟩ : Fin 2048)) :=
  concatenate_pair_apply_right (0 : Fin S4096.rank) u w h (ix1 c) rfl rfl (ix1 (⟨c.val - 2048, by omega⟩ : Fin 2048))
    (fun b hb => by
      match b with
      | ⟨0, _⟩ => exact absurd rfl hb)
    (by show (c.val - 2048) + 2048 = c.val; omega)

/-- The first output block from any operands: row `n`'s least over the columns of both products. -/
theorem pay5_apply (v1 : FVec Ideal S4096x3 .f32) (VL VR : Vec Ideal S8x2048 .bf16) (n : Fin 4096) :
    k0_pay5 v1 VL VR (ix3 (0 : Fin 1) n (0 : Fin 1))
      = Finset.univ.inf fun k : Fin 2048 => min (k0_pay3 v1 VL (ix2 n k)) (k0_pay4 v1 VR (ix2 n k)) := by
  unfold k0_pay5
  refine (cast_col_apply (multiReduction .minimumf [1] S4096 (minimumf (k0_pay3 v1 VL) (k0_pay4 v1 VR)) 0x7F800000#32
    reduces_S4096x2048_S4096 (.inl rfl) rfl) shapeCasts_S4096_S1x4096x1 n).trans ?_
  exact rowMin_apply (minimumf (k0_pay3 v1 VL) (k0_pay4 v1 VR)) (.inl rfl) rfl n

/-- The second output block from any operands: column `c`'s least over the rows, in the first product for the first
    2048 columns and in the second for the others. -/
theorem pay6_apply (v1 : FVec Ideal S4096x3 .f32) (VL VR : Vec Ideal S8x2048 .bf16) (c : Fin 4096) :
    k0_pay6 v1 VL VR (ix3 (0 : Fin 1) (0 : Fin 1) c)
      = if hc : c.val < 2048 then Finset.univ.inf fun n : Fin 4096 => k0_pay3 v1 VL (ix2 n (⟨c.val, hc⟩ : Fin 2048))
        else Finset.univ.inf fun n : Fin 4096 => k0_pay4 v1 VR (ix2 n (⟨c.val - 2048, by omega⟩ : Fin 2048)) := by
  unfold k0_pay6
  refine (cast_row_apply (concatenate S4096 0
    [⟨S2048, multiReduction .minimumf [0] S2048 (k0_pay3 v1 VL) 0x7F800000#32 reduces_S4096x2048_S2048 (.inl rfl) rfl⟩,
     ⟨S2048, multiReduction .minimumf [0] S2048 (k0_pay4 v1 VR) 0x7F800000#32 reduces_S4096x2048_S2048 (.inl rfl) rfl⟩]
    concatenates_S2048_S2048_S4096_d0) shapeCasts_S4096_S1x1x4096 c).trans ?_
  by_cases hc : c.val < 2048
  · rw [dif_pos hc]
    refine (cat_left_apply _ _ concatenates_S2048_S2048_S4096_d0 c hc).trans ?_
    exact colMin_apply (k0_pay3 v1 VL) (.inl rfl) rfl _
  · rw [dif_neg hc]
    refine (cat_right_apply _ _ concatenates_S2048_S2048_S4096_d0 c hc).trans ?_
    exact colMin_apply (k0_pay4 v1 VR) (.inl rfl) rfl _

/-! ## The two output blocks -/

variable (X : Vec Ideal S1x4096x3 .f32) (Y : Vec Ideal S1x3x4096 .f32)

/-- Entry (n, c) of the full product: the eight contraction terms of point `n` against column `c`. -/
def kdot (n c : Fin 4096) : EReal := ∑ q : Fin 8, Lhs.lhsAt X n q * Rhs.rhsAt Y q c

/-- The first product is the left half of the full product's columns. -/
theorem prodL_apply (n : Fin 4096) (k : Fin 2048) :
    k0_pay3 (k0_pay7 (View.ld X rX)) (View.ld (scr Y) rL) (ix2 n k) = kdot X Y n ⟨k.val, by omega⟩ := by
  refine (Matmul.pay3_apply (k0_pay7 (View.ld X rX)) (View.ld (scr Y) rL) n k).trans ?_
  unfold kdot
  exact Finset.sum_congr rfl fun q _ => congrArg₂ (· * ·) (Lhs.pay2_apply X n q) (Rhs.ldL_apply Y q k)

/-- The second product is the right half. -/
theorem prodR_apply (n : Fin 4096) (k : Fin 2048) :
    k0_pay4 (k0_pay7 (View.ld X rX)) (View.ld (scr Y) rR) (ix2 n k) = kdot X Y n ⟨2048 + k.val, by omega⟩ := by
  refine (Matmul.pay4_apply (k0_pay7 (View.ld X rX)) (View.ld (scr Y) rR) n k).trans ?_
  unfold kdot
  exact Finset.sum_congr rfl fun q _ => congrArg₂ (· * ·) (Lhs.pay2_apply X n q) (Rhs.ldR_apply Y q k)

/-- The first output block: for each point of the first cloud, the least entry of its row of the full product. -/
theorem out2_apply (n : Fin 4096) :
    out2 X Y (ix3 (0 : Fin 1) n (0 : Fin 1)) = Finset.univ.inf fun c : Fin 4096 => kdot X Y n c := by
  unfold out2
  refine (pay5_apply (k0_pay7 (View.ld X rX)) (View.ld (scr Y) rL) (View.ld (scr Y) rR) n).trans ?_
  have hf : (fun k : Fin 2048 => min (k0_pay3 (k0_pay7 (View.ld X rX)) (View.ld (scr Y) rL) (ix2 n k))
        (k0_pay4 (k0_pay7 (View.ld X rX)) (View.ld (scr Y) rR) (ix2 n k)))
      = fun k : Fin 2048 => min (kdot X Y n ⟨k.val, by omega⟩) (kdot X Y n ⟨2048 + k.val, by omega⟩) :=
    funext fun k => congrArg₂ min (prodL_apply X Y n k) (prodR_apply X Y n k)
  refine (congrArg (fun g : Fin 2048 → EReal => Finset.univ.inf g) hf).trans ?_
  exact Cert.InfHalves.inf_halves_2048 (fun c : Fin 4096 => kdot X Y n c)

/-- The second output block: for each point of the second cloud, the least entry of its column of the full product. -/
theorem out3_apply (c : Fin 4096) :
    out3 X Y (ix3 (0 : Fin 1) (0 : Fin 1) c) = Finset.univ.inf fun n : Fin 4096 => kdot X Y n c := by
  unfold out3
  refine (pay6_apply (k0_pay7 (View.ld X rX)) (View.ld (scr Y) rL) (View.ld (scr Y) rR) c).trans ?_
  by_cases hc : c.val < 2048
  · rw [dif_pos hc]
    refine congrArg (fun g : Fin 4096 → EReal => Finset.univ.inf g) (funext fun n => ?_)
    refine (prodL_apply X Y n ⟨c.val, hc⟩).trans ?_
    exact congrArg (kdot X Y n) (Fin.ext rfl)
  · rw [dif_neg hc]
    refine congrArg (fun g : Fin 4096 → EReal => Finset.univ.inf g) (funext fun n => ?_)
    refine (prodR_apply X Y n ⟨c.val - 2048, by omega⟩).trans ?_
    exact congrArg (kdot X Y n) (Fin.ext (by show 2048 + (c.val - 2048) = c.val; omega))

end Cert.KernelIdeal.Mins

end
-- ==== Proof.Spec.lean ====
/-
  The specification both programs are compared with: nearest-neighbour squared distances between two batches
  of point clouds, on the extended reals.

  For batch `b`, point `n` of the first cloud and point `m` of the second, the squared distance is written the
  way both programs compute it, `|x_n|² + |y_m|² - 2 x_n·y_m`, the three sums over the three coordinates. The
  first result is, for each point of the first cloud, the least such distance over the second cloud; the second
  result, for each point of the second cloud, the least over the first. A least value over a finite set is
  `Finset.inf`: the fold of `min` from the top element, which is how both programs' reductions read.
-/
import Idealize.ShloMosaic.PureOps.Ideal
import Idealize.ShloMosaic.Lib.ValueIdx

noncomputable section

namespace Cert.Chamfer

open Idealize.ShloMosaic Idealize.ShloMosaic.ValueIdx

/-- A batch of four clouds of 4096 points in three coordinates. -/
abbrev Pts : Shape := ⟨3, ![4, 4096, 3]⟩
/-- One number per batch and point. -/
abbrev Res : Shape := ⟨2, ![4, 4096]⟩

/-- The squared norm of point `n` of cloud `b`. -/
def sq (x : Pts.Idx → EReal) (b : Fin 4) (n : Fin 4096) : EReal :=
  ∑ k : Fin 3, x (ix3 b n k) * x (ix3 b n k)

/-- The inner product of point `n` of `x`'s cloud `b` with point `m` of `y`'s. -/
def dot (x y : Pts.Idx → EReal) (b : Fin 4) (n m : Fin 4096) : EReal :=
  ∑ k : Fin 3, x (ix3 b n k) * y (ix3 b m k)

/-- Their squared distance, expanded. -/
def dist (x y : Pts.Idx → EReal) (b : Fin 4) (n m : Fin 4096) : EReal :=
  (sq x b n + sq y b m) - 2 * dot x y b n m

/-- For each point of the first cloud, the least squared distance to the second cloud. -/
def nearest1 (x y : Pts.Idx → EReal) (i : Res.Idx) : EReal :=
  Finset.univ.inf fun m : Fin 4096 => dist x y (i 0) (i 1) m

/-- For each point of the second cloud, the least squared distance to the first cloud. -/
def nearest2 (x y : Pts.Idx → EReal) (i : Res.Idx) : EReal :=
  Finset.univ.inf fun n : Fin 4096 => dist x y (i 0) n (i 1)

end Cert.Chamfer

end
-- ==== Proof.DistLaw.lean ====
/-
  The algebraic law that joins the two ways of writing a squared distance, for finite entries.

  For a point x = (x0, x1, x2) and a point y = (y0, y1, y2) with real coordinates, put t_k = -2 · y_k,
  sx = x0² + x1² + x2², sy = y0² + y1² + y2² and ht = (1/4) · (t0² + t1² + t2²). Then ht = sy, the differences sx - sx
  and ht - ht are zero (both are real numbers, so the subtractions are the ordinary ones), and
  x·t + sx·1 + (sx - sx)·1 + 1·ht + 1·(ht - ht) + 1·((ht - ht) - (ht - ht)) = (sx + sy) - 2 · x·y.
  On the extended reals this needs every entry to be a real: with an infinite entry sx - sx is not zero.
-/
import proofs.«144934_g68685116998012_cont_9to1_m_1223_26_alg».proof.Proof.Spec
import Mathlib.Data.EReal.Operations
import Mathlib.Tactic.Ring

namespace Cert.Chamfer

/-- The law over real numbers, every term a coercion into the extended reals; the numerals `1` and `2` are the
    extended reals' own. The left side is a left fold of `+` over its eight terms. -/
theorem kernel_dist_real (a0 a1 a2 b0 b1 b2 : ℝ) :
    (a0 : EReal) * (((-2 : ℝ) : EReal) * (b0 : EReal)) + (a1 : EReal) * (((-2 : ℝ) : EReal) * (b1 : EReal))
        + (a2 : EReal) * (((-2 : ℝ) : EReal) * (b2 : EReal))
        + ((a0 : EReal) * a0 + (a1 : EReal) * a1 + (a2 : EReal) * a2) * 1
        + (((a0 : EReal) * a0 + (a1 : EReal) * a1 + (a2 : EReal) * a2)
            - ((a0 : EReal) * a0 + (a1 : EReal) * a1 + (a2 : EReal) * a2)) * 1
        + 1 * (((1 / 4 : ℝ) : EReal) * ((((-2 : ℝ) : EReal) * (b0 : EReal)) * (((-2 : ℝ) : EReal) * (b0 : EReal))
            + (((-2 : ℝ) : EReal) * (b1 : EReal)) * (((-2 : ℝ) : EReal) * (b1 : EReal))
            + (((-2 : ℝ) : EReal) * (b2 : EReal)) * (((-2 : ℝ) : EReal) * (b2 : EReal))))
        + 1 * ((((1 / 4 : ℝ) : EReal) * ((((-2 : ℝ) : EReal) * (b0 : EReal)) * (((-2 : ℝ) : EReal) * (b0 : EReal))
            + (((-2 : ℝ) : EReal) * (b1 : EReal)) * (((-2 : ℝ) : EReal) * (b1 : EReal))
            + (((-2 : ℝ) : EReal) * (b2 : EReal)) * (((-2 : ℝ) : EReal) * (b2 : EReal))))
          - (((1 / 4 : ℝ) : EReal) * ((((-2 : ℝ) : EReal) * (b0 : EReal)) * (((-2 : ℝ) : EReal) * (b0 : EReal))
            + (((-2 : ℝ) : EReal) * (b1 : EReal)) * (((-2 : ℝ) : EReal) * (b1 : EReal))
            + (((-2 : ℝ) : EReal) * (b2 : EReal)) * (((-2 : ℝ) : EReal) * (b2 : EReal)))))
        + 1 * (((((1 / 4 : ℝ) : EReal) * ((((-2 : ℝ) : EReal) * (b0 : EReal)) * (((-2 : ℝ) : EReal) * (b0 : EReal))
            + (((-2 : ℝ) : EReal) * (b1 : EReal)) * (((-2 : ℝ) : EReal) * (b1 : EReal))
            + (((-2 : ℝ) : EReal) * (b2 : EReal)) * (((-2 : ℝ) : EReal) * (b2 : EReal))))
          - (((1 / 4 : ℝ) : EReal) * ((((-2 : ℝ) : EReal) * (b0 : EReal)) * (((-2 : ℝ) : EReal) * (b0 : EReal))
            + (((-2 : ℝ) : EReal) * (b1 : EReal)) * (((-2 : ℝ) : EReal) * (b1 : EReal))
            + (((-2 : ℝ) : EReal) * (b2 : EReal)) * (((-2 : ℝ) : EReal) * (b2 : EReal)))))
          - ((((1 / 4 : ℝ) : EReal) * ((((-2 : ℝ) : EReal) * (b0 : EReal)) * (((-2 : ℝ) : EReal) * (b0 : EReal))
            + (((-2 : ℝ) : EReal) * (b1 : EReal)) * (((-2 : ℝ) : EReal) * (b1 : EReal))
            + (((-2 : ℝ) : EReal) * (b2 : EReal)) * (((-2 : ℝ) : EReal) * (b2 : EReal))))
          - (((1 / 4 : ℝ) : EReal) * ((((-2 : ℝ) : EReal) * (b0 : EReal)) * (((-2 : ℝ) : EReal) * (b0 : EReal))
            + (((-2 : ℝ) : EReal) * (b1 : EReal)) * (((-2 : ℝ) : EReal) * (b1 : EReal))
            + (((-2 : ℝ) : EReal) * (b2 : EReal)) * (((-2 : ℝ) : EReal) * (b2 : EReal))))))
      = (((a0 : EReal) * a0 + (a1 : EReal) * a1 + (a2 : EReal) * a2)
          + ((b0 : EReal) * b0 + (b1 : EReal) * b1 + (b2 : EReal) * b2))
        - 2 * ((a0 : EReal) * b0 + (a1 : EReal) * b1 + (a2 : EReal) * b2) := by
  have h1 : (1 : EReal) = ((1 : ℝ) : EReal) := rfl
  have h2 : (2 : EReal) = ((2 : ℝ) : EReal) := rfl
  rw [h1, h2]
  simp only [← EReal.coe_mul, ← EReal.coe_add, ← EReal.coe_sub]
  exact congrArg _ (by ring)

/-- The law for extended reals known to be reals, with the intermediate quantities named by hypotheses: `t_k` the
    second point's coordinates times -2, `sx` and `sy` the squared norms, `ht` a quarter of `t`'s squared norm. -/
theorem kernel_dist_eq {a0 a1 a2 b0 b1 b2 : ℝ} {x0 x1 x2 y0 y1 y2 t0 t1 t2 sx sy ht : EReal}
    (hx0 : x0 = (a0 : EReal)) (hx1 : x1 = (a1 : EReal)) (hx2 : x2 = (a2 : EReal))
    (hy0 : y0 = (b0 : EReal)) (hy1 : y1 = (b1 : EReal)) (hy2 : y2 = (b2 : EReal))
    (ht0 : t0 = ((-2 : ℝ) : EReal) * y0) (ht1 : t1 = ((-2 : ℝ) : EReal) * y1) (ht2 : t2 = ((-2 : ℝ) : EReal) * y2)
    (hsx : sx = x0 * x0 + x1 * x1 + x2 * x2) (hsy : sy = y0 * y0 + y1 * y1 + y2 * y2)
    (hht : ht = ((1 / 4 : ℝ) : EReal) * (t0 * t0 + t1 * t1 + t2 * t2)) :
    x0 * t0 + x1 * t1 + x2 * t2 + sx * 1 + (sx - sx) * 1 + 1 * ht + 1 * (ht - ht) + 1 * ((ht - ht) - (ht - ht))
      = (sx + sy) - 2 * (x0 * y0 + x1 * y1 + x2 * y2) := by
  subst hht hsx hsy ht0 ht1 ht2 hx0 hx1 hx2 hy0 hy1 hy2
  exact kernel_dist_real a0 a1 a2 b0 b1 b2

end Cert.Chamfer
-- ==== Proof.IdealBridge.lean ====
/-
  The idealized kernel computes the specification.

  Entry `(n, c)` of the body's matrix product, for batch `b`, is a sum of eight products: the three coordinates of
  point `n` against the pre-scaled coordinates `-2 y` of point `c`; the squared norm of `n` and its rounding
  remainder against ones; and ones against the three pieces of a quarter of the squared norm of `-2 y`. On the
  extended reals the remainders are differences of a number with itself, which vanish only for finite numbers; so
  for finite inputs, and only then, the entry is `|x_n|² + |y_c|² - 2 x_n·y_c`: the specification's squared
  distance (Proof/DistLaw.lean has the identity over the reals). The body's minima are then the specification's
  least values (Proof/IdealMins.lean), and the host's reshapes only rename the indices.
-/
import proofs.«144934_g68685116998012_cont_9to1_m_1223_26_alg».proof.Proof.IdealBlocks
import proofs.«144934_g68685116998012_cont_9to1_m_1223_26_alg».proof.Proof.IdealMins
import proofs.«144934_g68685116998012_cont_9to1_m_1223_26_alg».proof.Proof.Spec
import proofs.«144934_g68685116998012_cont_9to1_m_1223_26_alg».proof.Proof.Consts
import proofs.«144934_g68685116998012_cont_9to1_m_1223_26_alg».proof.Proof.DistLaw
import Idealize.ShloMosaic.Lib.ValueLayout

set_option maxRecDepth 16384

noncomputable section

namespace Cert.KernelIdeal.Bridge

open Cert.KernelIdeal Cert.KernelIdeal.Gen Cert.KernelIdeal.Body Cert.KernelIdeal.Blocks
open Idealize.ShloMosaic Idealize.ShloMosaic.ValueIdx

variable (x0 x1 : S4x4096x3.Idx → Elt Ideal .f32)

/-- The second operand at (batch, coordinate, point): minus two times the second argument's entry. -/
theorem scaledT_apply (b : Fin 4) (k : Fin 3) (c : Fin 4096) :
    scaledT (F := Ideal) x1 (ix3 b k c) = ((-2 : ℝ) : EReal) * x1 (ix3 b c k) := by
  unfold scaledT
  show (broadcastInDim S4x3x4096 ![] bcast_S_S4x3x4096 (constant (F := Ideal) S_ .f32 0xC0000000#32)) (ix3 b k c)
      * (transpose S4x3x4096 [0, 2, 1] x1 transposes_S4x4096x3_S4x3x4096_0_2_1) (ix3 b k c) = _
  rw [broadcastInDim_apply _ bcast_S_S4x3x4096 (constant (F := Ideal) S_ .f32 0xC0000000#32) (ix3 b k c) ix0 (fun a => a.elim0),
    transpose_ix3_021_apply x1 transposes_S4x4096x3_S4x3x4096_0_2_1 b k c]
  show Ideal.ofBits .f32 0xC0000000#32 * _ = _
  rw [Cert.Consts.ofBits_neg_two]

/-- The first result at (batch, point) is the body's first output for that batch at that point. -/
theorem res1_apply (b : Fin 4) (n : Fin 4096) :
    res1 (F := Ideal) x0 x1 (ix2 b n)
      = out2 (blkX x0 b) (blkY (scaledT (F := Ideal) x1) b) (ix3 (0 : Fin 1) n (0 : Fin 1)) := by
  unfold res1
  refine (shapeCast_apply (arr2 x0 (scaledT (F := Ideal) x1)) shapeCasts_S4x4096x1_S4x4096 (ix2 b n) (ix3 b n (0 : Fin 1)) (by
    rw [Shape.rowMajor_val_three, Shape.rowMajor_val_two]
    show (b.val * 4096 + n.val) * 1 + 0 = b.val * 4096 + n.val; omega)).trans ?_
  exact arr2_at x0 (scaledT (F := Ideal) x1) (ix3 b n (0 : Fin 1)) b (ix3 (0 : Fin 1) n (0 : Fin 1)) rfl rfl rfl

/-- The second result at (batch, point) is the body's second output for that batch at that point. -/
theorem res2_apply (b : Fin 4) (c : Fin 4096) :
    res2 (F := Ideal) x0 x1 (ix2 b c)
      = out3 (blkX x0 b) (blkY (scaledT (F := Ideal) x1) b) (ix3 (0 : Fin 1) (0 : Fin 1) c) := by
  unfold res2
  refine (shapeCast_apply (arr3 x0 (scaledT (F := Ideal) x1)) shapeCasts_S4x1x4096_S4x4096 (ix2 b c) (ix3 b (0 : Fin 1) c) (by
    rw [Shape.rowMajor_val_three, Shape.rowMajor_val_two]
    show (b.val * 1 + 0) * 4096 + c.val = b.val * 4096 + c.val; omega)).trans ?_
  exact arr3_at x0 (scaledT (F := Ideal) x1) (ix3 b (0 : Fin 1) c) b (ix3 (0 : Fin 1) (0 : Fin 1) c) rfl rfl rfl

/-- For finite inputs the product's entry `(n, c)` at batch `b` is the specification's squared distance. -/
theorem kdot_eq (h0 : ∀ i, ∃ r : ℝ, x0 i = (r : EReal)) (h1 : ∀ i, ∃ r : ℝ, x1 i = (r : EReal))
    (b : Fin 4) (n c : Fin 4096) :
    Mins.kdot (blkX x0 b) (blkY (scaledT (F := Ideal) x1) b) n c = Cert.Chamfer.dist x0 x1 b n c := by
  obtain ⟨a0, ha0⟩ := h0 (ix3 b n (0 : Fin 3))
  obtain ⟨a1, ha1⟩ := h0 (ix3 b n (1 : Fin 3))
  obtain ⟨a2, ha2⟩ := h0 (ix3 b n (2 : Fin 3))
  obtain ⟨b0, hb0⟩ := h1 (ix3 b c (0 : Fin 3))
  obtain ⟨b1, hb1⟩ := h1 (ix3 b c (1 : Fin 3))
  obtain ⟨b2, hb2⟩ := h1 (ix3 b c (2 : Fin 3))
  have key := Cert.Chamfer.kernel_dist_eq ha0 ha1 ha2 hb0 hb1 hb2 rfl rfl rfl rfl rfl rfl
  -- the eight entries of the left operand's row and of the right operand's column
  have L0 : Lhs.lhsAt (blkX x0 b) n (0 : Fin 8) = x0 (ix3 b n (0 : Fin 3)) := rfl
  have L1 : Lhs.lhsAt (blkX x0 b) n (1 : Fin 8) = x0 (ix3 b n (1 : Fin 3)) := rfl
  have L2 : Lhs.lhsAt (blkX x0 b) n (2 : Fin 8) = x0 (ix3 b n (2 : Fin 3)) := rfl
  have L3 : Lhs.lhsAt (blkX x0 b) n (3 : Fin 8)
      = x0 (ix3 b n (0 : Fin 3)) * x0 (ix3 b n (0 : Fin 3)) + x0 (ix3 b n (1 : Fin 3)) * x0 (ix3 b n (1 : Fin 3))
        + x0 (ix3 b n (2 : Fin 3)) * x0 (ix3 b n (2 : Fin 3)) := rfl
  have L4 : Lhs.lhsAt (blkX x0 b) n (4 : Fin 8)
      = (x0 (ix3 b n (0 : Fin 3)) * x0 (ix3 b n (0 : Fin 3)) + x0 (ix3 b n (1 : Fin 3)) * x0 (ix3 b n (1 : Fin 3))
          + x0 (ix3 b n (2 : Fin 3)) * x0 (ix3 b n (2 : Fin 3)))
        - (x0 (ix3 b n (0 : Fin 3)) * x0 (ix3 b n (0 : Fin 3)) + x0 (ix3 b n (1 : Fin 3)) * x0 (ix3 b n (1 : Fin 3))
          + x0 (ix3 b n (2 : Fin 3)) * x0 (ix3 b n (2 : Fin 3))) := rfl
  have L5 : Lhs.lhsAt (blkX x0 b) n (5 : Fin 8) = (1 : EReal) := Cert.Consts.ofBits_one_bf16.trans EReal.coe_one
  have L6 : Lhs.lhsAt (blkX x0 b) n (6 : Fin 8) = (1 : EReal) := Cert.Consts.ofBits_one_bf16.trans EReal.coe_one
  have L7 : Lhs.lhsAt (blkX x0 b) n (7 : Fin 8) = (1 : EReal) := Cert.Consts.ofBits_one_bf16.trans EReal.coe_one
  have T0 : blkY (scaledT (F := Ideal) x1) b (ix3 (0 : Fin 1) (0 : Fin 3) c) = ((-2 : ℝ) : EReal) * x1 (ix3 b c (0 : Fin 3)) :=
    scaledT_apply x1 b (0 : Fin 3) c
  have T1 : blkY (scaledT (F := Ideal) x1) b (ix3 (0 : Fin 1) (1 : Fin 3) c) = ((-2 : ℝ) : EReal) * x1 (ix3 b c (1 : Fin 3)) :=
    scaledT_apply x1 b (1 : Fin 3) c
  have T2 : blkY (scaledT (F := Ideal) x1) b (ix3 (0 : Fin 1) (2 : Fin 3) c) = ((-2 : ℝ) : EReal) * x1 (ix3 b c (2 : Fin 3)) :=
    scaledT_apply x1 b (2 : Fin 3) c
  have H : Rhs.hY (blkY (scaledT (F := Ideal) x1) b) c
      = ((1 / 4 : ℝ) : EReal) * ((((-2 : ℝ) : EReal) * x1 (ix3 b c (0 : Fin 3))) * (((-2 : ℝ) : EReal) * x1 (ix3 b c (0 : Fin 3)))
          + (((-2 : ℝ) : EReal) * x1 (ix3 b c (1 : Fin 3))) * (((-2 : ℝ) : EReal) * x1 (ix3 b c (1 : Fin 3)))
          + (((-2 : ℝ) : EReal) * x1 (ix3 b c (2 : Fin 3))) * (((-2 : ℝ) : EReal) * x1 (ix3 b c (2 : Fin 3)))) := by
    unfold Rhs.hY
    rw [T0, T1, T2, Cert.Consts.ofBits_quarter]
  have R0 : Rhs.rhsAt (blkY (scaledT (F := Ideal) x1) b) (0 : Fin 8) c = ((-2 : ℝ) : EReal) * x1 (ix3 b c (0 : Fin 3)) := T0
  have R1 : Rhs.rhsAt (blkY (scaledT (F := Ideal) x1) b) (1 : Fin 8) c = ((-2 : ℝ) : EReal) * x1 (ix3 b c (1 : Fin 3)) := T1
  have R2 : Rhs.rhsAt (blkY (scaledT (F := Ideal) x1) b) (2 : Fin 8) c = ((-2 : ℝ) : EReal) * x1 (ix3 b c (2 : Fin 3)) := T2
  have R3 : Rhs.rhsAt (blkY (scaledT (F := Ideal) x1) b) (3 : Fin 8) c = (1 : EReal) := Cert.Consts.ofBits_one_bf16.trans EReal.coe_one
  have R4 : Rhs.rhsAt (blkY (scaledT (F := Ideal) x1) b) (4 : Fin 8) c = (1 : EReal) := Cert.Consts.ofBits_one_bf16.trans EReal.coe_one
  have R5 : Rhs.rhsAt (blkY (scaledT (F := Ideal) x1) b) (5 : Fin 8) c = Rhs.hY (blkY (scaledT (F := Ideal) x1) b) c := rfl
  have R6 : Rhs.rhsAt (blkY (scaledT (F := Ideal) x1) b) (6 : Fin 8) c
      = Rhs.hY (blkY (scaledT (F := Ideal) x1) b) c - Rhs.hY (blkY (scaledT (F := Ideal) x1) b) c := rfl
  have R7 : Rhs.rhsAt (blkY (scaledT (F := Ideal) x1) b) (7 : Fin 8) c
      = (Rhs.hY (blkY (scaledT (F := Ideal) x1) b) c - Rhs.hY (blkY (scaledT (F := Ideal) x1) b) c)
        - (Rhs.hY (blkY (scaledT (F := Ideal) x1) b) c - Rhs.hY (blkY (scaledT (F := Ideal) x1) b) c) := rfl
  unfold Mins.kdot Cert.Chamfer.dist Cert.Chamfer.sq Cert.Chamfer.dot
  rw [Fin.sum_univ_eight, Fin.sum_univ_three, Fin.sum_univ_three, Fin.sum_univ_three,
    L0, L1, L2, L3, L4, L5, L6, L7, R0, R1, R2, R3, R4, R5, R6, R7, H]
  exact key

/-- The idealized kernel's first result is the specification's, for finite inputs. -/
theorem res1_eq (h0 : ∀ i, ∃ r : ℝ, x0 i = (r : EReal)) (h1 : ∀ i, ∃ r : ℝ, x1 i = (r : EReal)) :
    res1 (F := Ideal) x0 x1 = Cert.Chamfer.nearest1 x0 x1 := by
  funext i
  obtain ⟨b, n, rfl⟩ : ∃ (b : Fin 4) (n : Fin 4096), i = ix2 b n := ⟨i 0, i 1, eq_ix2 i⟩
  refine (res1_apply x0 x1 b n).trans ?_
  refine (Mins.out2_apply (blkX x0 b) (blkY (scaledT (F := Ideal) x1) b) n).trans ?_
  exact congrArg Finset.univ.inf (funext fun c => kdot_eq x0 x1 h0 h1 b n c)

/-- And the second. -/
theorem res2_eq (h0 : ∀ i, ∃ r : ℝ, x0 i = (r : EReal)) (h1 : ∀ i, ∃ r : ℝ, x1 i = (r : EReal)) :
    res2 (F := Ideal) x0 x1 = Cert.Chamfer.nearest2 x0 x1 := by
  funext i
  obtain ⟨b, c, rfl⟩ : ∃ (b : Fin 4) (c : Fin 4096), i = ix2 b c := ⟨i 0, i 1, eq_ix2 i⟩
  refine (res2_apply x0 x1 b c).trans ?_
  refine (Mins.out3_apply (blkX x0 b) (blkY (scaledT (F := Ideal) x1) b) c).trans ?_
  exact congrArg Finset.univ.inf (funext fun n => kdot_eq x0 x1 h0 h1 b n c)

end Cert.KernelIdeal.Bridge

end
-- ==== Proof.RefNearest.lean ====
/-
  The reference program's two results are the specification's nearest-neighbour squared distances.

  The reference computes, for batch b, point n of the first cloud and point m of the second,
  ((0 + Σ x²) + (0 + Σ y²)) - 2 · Σ x y, the three sums over the three coordinates, and then takes the minimum from
  +infinity over m (first result) or over n (second result). On the extended reals 0 + a = a, the pattern of 2.0 denotes
  2, the pattern of +infinity denotes the top element, and a minimum from the top element over a finite index set is the
  infimum over it. No finiteness of the inputs is used.
-/
import proofs.«144934_g68685116998012_cont_9to1_m_1223_26_alg».proof.Proof.Gen.ReferenceIdeal.Read
import proofs.«144934_g68685116998012_cont_9to1_m_1223_26_alg».proof.Proof.Spec
import proofs.«144934_g68685116998012_cont_9to1_m_1223_26_alg».proof.Proof.Consts
import Idealize.ShloMosaic.PureOps.Reduce
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo

/-- One entry of the matrix of squared distances the reference builds before its two minima. -/
theorem dist_apply (x0 x1 : (⟨S4x4096x3, .f32⟩ : BufTy).Contents (Elt Ideal)) (b : Fin 4) (n m : Fin 4096) :
    val_main_v12 (F := Ideal) x0 x1 (ix3 b n m) = Cert.Chamfer.dist x0 x1 b n m := by
  rw [val_main_v12_apply, val_main_v9_apply, val_main_v11_apply, val_main_v10_apply, val_main_cst_1_apply,
    val_main_v7_apply, val_main_v8_apply, val_main_v5_apply, val_main_v6_apply, val_main_v1_apply, val_main_v3_apply,
    val_main_cst_apply, val_main_cst_0_apply, val_main_v4_apply]
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v4 (ix3 b n m) k = ix3 b n k := fun k =>
    funext fun a => Fin.ext (by match a with | ⟨0, _⟩ => rfl | ⟨1, _⟩ => rfl | ⟨2, _⟩ => rfl)
  have e4 : ∀ k : Fin 3, ridx_main_v4 (ix3 b n m) k = ix3 b m k := fun k =>
    funext fun a => Fin.ext (by match a with | ⟨0, _⟩ => rfl | ⟨1, _⟩ => rfl | ⟨2, _⟩ => rfl)
  simp only [e1, e2, e3, e4, val_main_v0_apply, val_main_v2_apply, Ideal.subf_def, Ideal.addf_def, Ideal.mulf_def,
    Ideal.ofBits_def, Cert.Consts.ofBits_two, Ideal.ofBits_zero_f32, zero_add]
  have two : ((2 : ℝ) : EReal) = 2 := by first | rfl | norm_cast | simp
  rw [two]
  rfl

/-- A minimum from the top element over a finite index set is the infimum over it. -/
theorem fold_min_top {ι : Type} [Fintype ι] (f : ι → EReal) :
    (Finset.univ : Finset ι).fold min (⊤ : EReal) f = Finset.univ.inf f := by
  rfl

/-- A result index of the first minimum with column `k` put back is (batch, row, k). -/
theorem lift_d2 (h : S4x4096x4096.Reduces [2] S4x4096) (j : S4x4096.Idx) (k : Fin (S4x4096x4096.size 2)) :
    h.lift j k = ix3 (j 0) (j 1) (⟨k.val, k.isLt⟩ : Fin 4096) := by
  funext c; apply Fin.ext
  fin_cases c <;> rfl

/-- A result index of the second minimum with row `k` put back is (batch, k, column). -/
theorem lift_d1 (h : S4x4096x4096.Reduces [1] S4x4096) (j : S4x4096.Idx) (k : Fin (S4x4096x4096.size 1)) :
    h.lift j k = ix3 (j 0) (⟨k.val, k.isLt⟩ : Fin 4096) (j 1) := by
  funext c; apply Fin.ext
  fin_cases c <;> rfl

/-- The reference's first result: for each point of the first cloud, the least squared distance to the second. -/
theorem ref_nearest1 (x0 x1 : (⟨S4x4096x3, .f32⟩ : BufTy).Contents (Elt Ideal)) :
    val_main_v13 (F := Ideal) x0 x1 = Cert.Chamfer.nearest1 x0 x1 := by
  funext j
  have h : S4x4096x4096.Reduces [2] S4x4096 := by decide
  unfold val_main_v13
  rw [Host.reduce_eq_fold_single FloatOps.minimumf _ _ reducesTo_S4x4096x4096_S4x4096_d2 h h_S_ j]
  have hf : (val_main_v12 (F := Ideal) x0 x1 ∘ h.lift j) = fun m : Fin 4096 => Cert.Chamfer.dist x0 x1 (j 0) (j 1) m :=
    funext fun k => by
      show val_main_v12 (F := Ideal) x0 x1 (h.lift j k) = _
      rw [lift_d2 h j k]
      exact dist_apply x0 x1 (j 0) (j 1) _
  rw [hf]
  show Finset.fold min (Ideal.ofBits .f32 0x7F800000#32) _ _ = _
  rw [Cert.Consts.ofBits_inf]
  exact fold_min_top _

/-- The reference's second result: for each point of the second cloud, the least squared distance to the first. -/
theorem ref_nearest2 (x0 x1 : (⟨S4x4096x3, .f32⟩ : BufTy).Contents (Elt Ideal)) :
    val_main_v14 (F := Ideal) x0 x1 = Cert.Chamfer.nearest2 x0 x1 := by
  funext j
  have h : S4x4096x4096.Reduces [1] S4x4096 := by decide
  unfold val_main_v14
  rw [Host.reduce_eq_fold_single FloatOps.minimumf _ _ reducesTo_S4x4096x4096_S4x4096_d1 h h_S_ j]
  have hf : (val_main_v12 (F := Ideal) x0 x1 ∘ h.lift j) = fun n : Fin 4096 => Cert.Chamfer.dist x0 x1 (j 0) n (j 1) :=
    funext fun k => by
      show val_main_v12 (F := Ideal) x0 x1 (h.lift j k) = _
      rw [lift_d1 h j k]
      exact dist_apply x0 x1 (j 0) _ (j 1)
  rw [hf]
  show Finset.fold min (Ideal.ofBits .f32 0x7F800000#32) _ _ = _
  rw [Cert.Consts.ofBits_inf]
  exact fold_min_top _

end Cert.ReferenceIdeal.RefValue

end
-- ==== Proof.FiniteInputs.lean ====
/-
  From the precondition to "every input entry is a real number".

  The precondition says that, on every device, the conjunction of "every |x| is below +infinity" over the first
  argument array and the same over the second is true. A conjunction of two bits is 1 when both are; an "and" over all
  entries of an array of bits is 1 only when every entry is; and an extended real whose absolute value max x (-x) is
  strictly below the top element is neither the top nor the bottom element, hence a real.
-/
import proofs.«144934_g68685116998012_cont_9to1_m_1223_26_alg».proof.Defs
import proofs.«144934_g68685116998012_cont_9to1_m_1223_26_alg».proof.Proof.Gen.Pre_finite_inputs
import proofs.«144934_g68685116998012_cont_9to1_m_1223_26_alg».proof.Proof.Consts
import Idealize.ShloMosaic.Lib.ReduceAll
import Idealize.ShloMosaic.Lib.ValueIdx

noncomputable section

namespace Cert.Proof.Finite

open Idealize.ShloMosaic Idealize.SL.Sem

/-- The scalar shape has one index. -/
instance : Subsingleton Cert.Pre_finite_inputs.S_.Idx := ⟨fun a b => funext fun d => d.elim0⟩

/-- An extended real whose absolute value compares strictly below +infinity is a real. -/
theorem real_of_abs_lt_inf (x : Ideal .f32)
    (h : FloatOps.cmpf (F := Ideal) .olt (FloatOps.hostAbsf x) (FloatOps.ofBits .f32 0x7F800000#32) = 1#1) :
    ∃ r : ℝ, x = (r : EReal) := by
  change Ideal.cmp .olt (max x (-x)) (Ideal.ofBits .f32 0x7F800000#32) = 1#1 at h
  rw [Cert.Consts.ofBits_inf] at h
  unfold Ideal.cmp at h
  induction x using EReal.rec with
  | bot => simp at h
  | coe r => exact ⟨r, rfl⟩
  | top => simp at h

/-- The printed predicate, true of two arrays, makes every entry of both a real. -/
theorem real_of_fn [Cert.Pre_finite_inputs.Facts]
    (x0 x1 : FVec Ideal Cert.Pre_finite_inputs.S4x4096x3 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  exact ⟨fun i => real_of_abs_lt_inf (x0 i) (Host.reduce_andi_all _ _ _ _ _ ha i),
    fun i => real_of_abs_lt_inf (x1 i) (Host.reduce_andi_all _ _ _ _ _ hb i)⟩

theorem finite_arg0 [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S4x4096x3.Idx) :
    ∃ r : ℝ, m ((c.tc : Thread Cert.KernelIdeal.nD Cert.KernelIdeal.τ).loc Cert.KernelIdeal.main_arg0) i = (r : EReal) :=
  (real_of_fn _ _ (h c)).1 i

theorem finite_arg1 [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S4x4096x3.Idx) :
    ∃ r : ℝ, m ((c.tc : Thread Cert.KernelIdeal.nD Cert.KernelIdeal.τ).loc Cert.KernelIdeal.main_arg1) i = (r : EReal) :=
  (real_of_fn _ _ (h c)).2 i

end Cert.Proof.Finite

end
-- ==== Proof.lean ====
/-
  A Pallas kernel for the Chamfer distance between two batches of point clouds, against its jnp reference, over
  the extended reals.

  The reference forms, for every batch, the full matrix of squared distances `|x_n|² + |y_m|² - 2 x_n·y_m` between the
  4096 points of one cloud and the 4096 of the other, and takes its row minima and its column minima. The kernel
  never forms that matrix on the host: per batch it multiplies an augmented copy of the first cloud (coordinates,
  squared norm, a rounding remainder, ones) by a scratch holding the second cloud pre-scaled by -2 together with
  rows of ones and the pieces of its squared norms, so that the matrix unit's product IS the distance matrix, two
  column halves at a time, and reduces it by minima on the way. Read at the ideal instance, where a change of
  float format is the identity, the remainders vanish for finite inputs and the two programs compute the same
  least distances (Proof/IdealBridge.lean for the kernel, Proof/RefNearest.lean for the reference; the common
  specification is Proof/Spec.lean).

  The frames: the kernel's body is run symbolically once for any float instance (Proof/IdealBody.lean for the
  idealized program, Proof/WordBody.lean for the word-level one), the scratch's contents after its five
  sub-word stores being independent of what it held before (Proof/ScratchRows.lean); the reference is a straight
  line of host operations. The idealization's three rewrites each replace a narrowing to half precision followed
  by the widening back, which is the identity at the ideal instance.
-/
import proofs.«144934_g68685116998012_cont_9to1_m_1223_26_alg».proof.Defs
import proofs.«144934_g68685116998012_cont_9to1_m_1223_26_alg».proof.Proof.Gen.Kernel
import proofs.«144934_g68685116998012_cont_9to1_m_1223_26_alg».proof.Proof.Gen.KernelIdeal
import proofs.«144934_g68685116998012_cont_9to1_m_1223_26_alg».proof.Proof.Gen.ReferenceIdeal
import proofs.«144934_g68685116998012_cont_9to1_m_1223_26_alg».proof.Proof.Gen.Pre_finite_inputs
import proofs.«144934_g68685116998012_cont_9to1_m_1223_26_alg».proof.Proof.Gen.ReferenceIdeal.Run
import proofs.«144934_g68685116998012_cont_9to1_m_1223_26_alg».proof.Proof.Gen.ReferenceIdeal.Read
import proofs.«144934_g68685116998012_cont_9to1_m_1223_26_alg».proof.Proof.WordBody
import proofs.«144934_g68685116998012_cont_9to1_m_1223_26_alg».proof.Proof.IdealBridge
import proofs.«144934_g68685116998012_cont_9to1_m_1223_26_alg».proof.Proof.RefNearest
import proofs.«144934_g68685116998012_cont_9to1_m_1223_26_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments as they were. -/
theorem frame_p : Cert.frame_Kernel := fun m ρ _ => Cert.Kernel.Body.frame m ρ

/-- So does the idealized kernel. -/
theorem frame_pi : Cert.frame_KernelIdeal := fun m ρ _ => Cert.KernelIdeal.Body.frame m ρ

/-- So does the reference: its run, with the results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- Each of the three rewrites replaced a narrowing followed by the widening back by the value itself: the
    identity on the extended reals, the rounding through the narrower format on words. -/
theorem preserves : Cert.preserves_Kernel_KernelIdeal :=
  ⟨IdealRules.truncf_extf.statement Cert.KernelIdeal.S1x4096 .f32 .bf16,
   IdealRules.truncf_extf.statement Cert.KernelIdeal.S1x4096 .f32 .bf16,
   IdealRules.truncf_extf.statement Cert.KernelIdeal.S4096x1 .f32 .bf16⟩

/-- From memories that agree on the two finite arguments both idealized programs end with the specification's
    least squared distances in their two results. -/
theorem algebraic : Cert.algebraic_KernelIdeal_ReferenceIdeal := by
  intro m ρ m' ρ' hpre hagree
  have f0 := fun c i => Cert.Proof.Finite.finite_arg0 m hpre c i
  have f1 := fun c i => Cert.Proof.Finite.finite_arg1 m hpre c i
  refine ⟨fun c => Cert.Chamfer.nearest1 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.Chamfer.nearest2 (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun r h c =>
      ⟨(h c).1.trans (Cert.KernelIdeal.Bridge.res1_eq _ _ (f0 c) (f1 c)),
       (h c).2.1.trans (Cert.KernelIdeal.Bridge.res2_eq _ _ (f0 c) (f1 c)),
       (h c).2.2.1, (h c).2.2.2⟩)
      (Cert.KernelIdeal.Blocks.run (F := Ideal) m ρ)
  · refine (θ_run Cert.ReferenceIdeal.defs _ _).mono (fun r h c => ⟨?_, ?_, (h c).2.2.1, (h c).2.2.2⟩)
      (Cert.ReferenceIdeal.Value.run (F := Ideal) m' ρ')
    · rw [(h c).1, Cert.ReferenceIdeal.Read.val_main_v13_eq, Cert.ReferenceIdeal.RefValue.ref_nearest1, (hagree c).1, (hagree c).2]
    · rw [(h c).2.1, Cert.ReferenceIdeal.Read.val_main_v14_eq, Cert.ReferenceIdeal.RefValue.ref_nearest2, (hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
